-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S200000x32 : Shape := ⟨2, ![200000, 32]⟩
abbrev S32x6x1 : Shape := ⟨3, ![32, 6, 1]⟩
abbrev S6x32 : Shape := ⟨2, ![6, 32]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S32x6x1 : S_.BroadcastsInDim S32x6x1 (![] : Fin 0 → Fin S32x6x1.rank)
  reducesTo_S32x6x1_S_d0_1_2 : S32x6x1.ReducesTo [0, 1, 2] S_
  bcast_S_S6x32 : S_.BroadcastsInDim S6x32 (![] : Fin 0 → Fin S6x32.rank)
  reducesTo_S6x32_S_d0_1 : S6x32.ReducesTo [0, 1] S_

variable [Facts]

def fn {F : FTy → Type} [FloatOps F] (main_arg0 : IVec S8192x32 32) (main_arg1 : FVec F S200000x32 .f32) (main_arg2 : FVec F S32x6x1 .f32) (main_arg3 : FVec F S6x32 .f32) : IVec S_ 1 :=
  let main_v0 : FVec F S200000x32 .f32 := Host.absf main_arg1
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S32x6x1 .f32 := Host.absf main_arg2
  let main_cst_0 : FVec F S_ .f32 := constant S_ .f32 0x7F800000#32
  let main_v5 : FVec F S32x6x1 .f32 := broadcastInDim S32x6x1 ![] bcast_S_S32x6x1 main_cst_0
  let main_v6 : IVec S32x6x1 1 := cmpf .olt main_v4 main_v5
  let main_c_1 : IVec S_ 1 := constantI S_ 1 1#1
  let main_v7 : IVec S_ 1 := (fun x v => Host.reduce IntOp.andi x v reducesTo_S32x6x1_S_d0_1_2 h_S_) main_v6 main_c_1
  let main_v8 : IVec S_ 1 := andi main_v3 main_v7
  let main_v9 : FVec F S6x32 .f32 := Host.absf main_arg3
  let main_cst_2 : FVec F S_ .f32 := constant S_ .f32 0x7F800000#32
  let main_v10 : FVec F S6x32 .f32 := broadcastInDim S6x32 ![] bcast_S_S6x32 main_cst_2
  let main_v11 : IVec S6x32 1 := cmpf .olt main_v9 main_v10
  let main_c_3 : IVec S_ 1 := constantI S_ 1 1#1
  let main_v12 : IVec S_ 1 := (fun x v => Host.reduce IntOp.andi x v reducesTo_S6x32_S_d0_1 h_S_) main_v11 main_c_3
  let main_v13 : IVec S_ 1 := andi main_v8 main_v12
  main_v13
-- ==== Kernel.lean ====
abbrev S8192x32 : Shape := ⟨2, ![8192, 32]⟩
abbrev S200000x32 : Shape := ⟨2, ![200000, 32]⟩
abbrev S32x6x1 : Shape := ⟨3, ![32, 6, 1]⟩
abbrev S6x32 : Shape := ⟨2, ![6, 32]⟩
abbrev S_ : Shape := ⟨0, ![]⟩
abbrev S8192x32x1 : Shape := ⟨3, ![8192, 32, 1]⟩
abbrev S8192x32x32 : Shape := ⟨3, ![8192, 32, 32]⟩
abbrev S32x6 : Shape := ⟨2, ![32, 6]⟩
abbrev S32 : Shape := ⟨1, ![32]⟩
abbrev S32x1 : Shape := ⟨2, ![32, 1]⟩
abbrev S32x32 : Shape := ⟨2, ![32, 32]⟩
abbrev S1x32x1 : Shape := ⟨3, ![1, 32, 1]⟩
abbrev S256x32x32 : Shape := ⟨3, ![256, 32, 32]⟩
abbrev S256x32 : Shape := ⟨2, ![256, 32]⟩
abbrev S256x32x1 : Shape := ⟨3, ![256, 32, 1]⟩
abbrev S1x32x32 : Shape := ⟨3, ![1, 32, 32]⟩

abbrev nBuf : Space → Nat
  | .hbm => 35
  | .vmem => 13
  | .smem => 0
  | _ => 0

abbrev bufTy : (tb : Table) → Fin (tcTables nBuf tb) → BufTy
  | .hbm, ⟨0, _⟩ => ⟨S8192x32, .i32⟩
  | .hbm, ⟨1, _⟩ => ⟨S200000x32, .f32⟩
  | .hbm, ⟨2, _⟩ => ⟨S32x6x1, .f32⟩
  | .hbm, ⟨3, _⟩ => ⟨S6x32, .f32⟩
  | .hbm, ⟨4, _⟩ => ⟨S_, .i32⟩
  | .hbm, ⟨5, _⟩ => ⟨S8192x32, .i32⟩
  | .hbm, ⟨6, _⟩ => ⟨S8192x32, .i1⟩
  | .hbm, ⟨7, _⟩ => ⟨S_, .i32⟩
  | .hbm, ⟨8, _⟩ => ⟨S8192x32, .i32⟩
  | .hbm, ⟨9, _⟩ => ⟨S8192x32, .i32⟩
  | .hbm, ⟨10, _⟩ => ⟨S8192x32, .i32⟩
  | .hbm, ⟨11, _⟩ => ⟨S8192x32x1, .i32⟩
  | .hbm, ⟨12, _⟩ => ⟨S8192x32x32, .f32⟩
  | .hbm, ⟨13, _⟩ => ⟨S32x6, .f32⟩
  | .hbm, ⟨14, _⟩ => ⟨S_, .f32⟩
  | .hbm, ⟨15, _⟩ => ⟨S32x6, .f32⟩
  | .hbm, ⟨16, _⟩ => ⟨S32x6, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32x1, .f32⟩
  | .hbm, ⟨23, _⟩ => ⟨S32x6, .f32⟩
  | .hbm, ⟨24, _⟩ => ⟨S32x6, .f32⟩
  | .hbm, ⟨25, _⟩ => ⟨S32x6, .f32⟩
  | .hbm, ⟨26, _⟩ => ⟨S_, .f32⟩
  | .hbm, ⟨27, _⟩ => ⟨S32, .f32⟩
  | .hbm, ⟨28, _⟩ => ⟨S32x1, .f32⟩
  | .hbm, ⟨29, _⟩ => ⟨S32x6, .f32⟩
  | .hbm, ⟨30, _⟩ => ⟨S32x6, .f32⟩
  | .hbm, ⟨31, _⟩ => ⟨S32x32, .f32⟩
  | .hbm, ⟨32, _⟩ => ⟨S1x32x1, .f32⟩
  | .hbm, ⟨33, _⟩ => ⟨S1x32x1, .f32⟩
  | .hbm, ⟨34, _⟩ => ⟨S8192x32x32, .f32⟩
  | .local _ .vmem, ⟨0, _⟩ => ⟨S256x32x32, .f32⟩
  | .local _ .vmem, ⟨1, _⟩ => ⟨S256x32x32, .f32⟩
  | .local _ .vmem, ⟨2, _⟩ => ⟨S1x32x1, .f32⟩
  | .local _ .vmem, ⟨3, _⟩ => ⟨S1x32x1, .f32⟩
  | .local _ .vmem, ⟨4, _⟩ => ⟨S1x32x1, .f32⟩
  | .local _ .vmem, ⟨5, _⟩ => ⟨S1x32x1, .f32⟩
  | .local _ .vmem, ⟨6, _⟩ => ⟨S256x32x32, .f32⟩
  | .local _ .vmem, ⟨7, _⟩ => ⟨S256x32x32, .f32⟩
  | .local _ .vmem, ⟨8, _⟩ => ⟨S1x32x1, .f32⟩
  | .local _ .vmem, ⟨9, _⟩ => ⟨S1x32x1, .f32⟩
  | .local _ .vmem, ⟨10, _⟩ => ⟨S32x32, .f32⟩
  | .local _ .vmem, ⟨11, _⟩ => ⟨S256x32x32, .f32⟩
  | .local _ .vmem, ⟨12, _⟩ => ⟨S256x32x32, .f32⟩
  | _, _ => ⟨S8192x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x32x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  shapeCasts_S32x6x1_S32x6 : S32x6x1.ShapeCasts S32x6
  bcast_S_S32x6 : S_.BroadcastsInDim S32x6 (![] : Fin 0 → Fin S32x6.rank)
  reducesTo_S32x6_S32_d1 : S32x6.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  inb_S1x32x1_S1x32x1_0_0_0 : ∀ a, (![0, 0, 0] : Fin 3 → Nat) a + S1x32x1.size a ≤ S1x32x1.size a
  h_S1x32x1 : 0 < S1x32x1.numel
  shapeCasts_S1x32x1_S1x32x1 : S1x32x1.ShapeCasts S1x32x1
  inb_S256x32x32_S256x32x32_0_0_0 : ∀ a, (![0, 0, 0] : Fin 3 → Nat) a + S256x32x32.size a ≤ S256x32x32.size a
  h_S256x32x32 : 0 < S256x32x32.numel
  shapeCasts_S256x32x32_S256x32x32 : S256x32x32.ShapeCasts S256x32x32
  reduces_S256x32x32_S256x32 : S256x32x32.Reduces [2] S256x32
  shapeCasts_S256x32_S256x32x1 : S256x32.ShapeCasts S256x32x1
  reduces_S256x32x1_S32x1 : S256x32x1.Reduces [0] S32x1
  shapeCasts_S32x1_S1x32x1 : S32x1.ShapeCasts S1x32x1
  broadcasts_S1x32x1_S256x32x32 : S1x32x1.Broadcasts S256x32x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32x32_S1x32x32 : S32x32.ShapeCasts S1x32x32
  broadcasts_S1x32x32_S256x32x32 : S1x32x32.Broadcasts S256x32x32
  gather_S200000x32_S8192x32x1_S8192x32x32_2_0_n_n_0_2_132_wf : GatherDims.WF S200000x32 S8192x32x1 S8192x32x32 [2] [0] [] [0] [] 2 ![1, 32]
  dot_S32x6_S6x32_S32x32_1_0_0_1_n_n_wf : DotDims.WF S32x6 S6x32 S32x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x32.size a ≤ S8192x32x32.size a
  hwx0_0 : ∀ i : grid0.Coords, EltTy.bits .f32 = 32 ∨ (Rect.block (s := S8192x32x32) S256x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32x1.size a ≤ S1x32x1.size a
  hwx0_1 : ∀ i : grid0.Coords, EltTy.bits .f32 = 32 ∨ (Rect.block (s := S1x32x1) S1x32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32x1.size a ≤ S1x32x1.size a
  hwx0_2 : ∀ i : grid0.Coords, EltTy.bits .f32 = 32 ∨ (Rect.block (s := S1x32x1) S1x32x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32x32.size a ≤ S8192x32x32.size a
  hwx1_0 : ∀ i : grid1.Coords, EltTy.bits .f32 = 32 ∨ (Rect.block (s := S8192x32x32) S256x32x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32x1.size a ≤ S1x32x1.size a
  hwx1_1 : ∀ i : grid1.Coords, EltTy.bits .f32 = 32 ∨ (Rect.block (s := S1x32x1) S1x32x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32x1.size a ≤ S1x32x1.size a
  hwx1_2 : ∀ i : grid1.Coords, EltTy.bits .f32 = 32 ∨ (Rect.block (s := S1x32x1) S1x32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x32x32.size a ≤ S8192x32x32.size a
  hwx1_4 : ∀ i : grid1.Coords, EltTy.bits .f32 = 32 ∨ (Rect.block (s := S8192x32x32) S256x32x32.size (cc1_transform_4 i) (hinb1_4 i)).WholeWords (EltTy.packing .f32)

variable [Facts₀]

def gather_S200000x32_S8192x32x1_S8192x32x32_2_0_n_n_0_2_132 : GatherDims S200000x32 S8192x32x1 S8192x32x32 where
  offsetDims := [2]
  collapsedSliceDims := [0]
  operandBatchingDims := []
  startIndicesBatchingDims := []
  startIndexMap := [0]
  indexVectorDim := 2
  sliceSizes := ![1, 32]
  wf := gather_S200000x32_S8192x32x1_S8192x32x32_2_0_n_n_0_2_132_wf
def dot_S32x6_S6x32_S32x32_1_0_0_1_n_n : DotDims S32x6 S6x32 S32x32 where
  lhsContracting := [1]
  rhsContracting := [0]
  lhsNonContracting := [0]
  rhsNonContracting := [1]
  lhsBatch := []
  rhsBatch := []
  wf := dot_S32x6_S6x32_S32x32_1_0_0_1_n_n_wf

abbrev win0_0 : Pipeline.Window sig grid0 :=
  Pipeline.Window.ofSpec (Memref.whole main_v6) S256x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22_0) S1x32x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22_1) S1x32x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S256x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_0) S1x32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22_1) S1x32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S256x32x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x32 : Shape := ⟨2, ![8192, 32]⟩
abbrev S200000x32 : Shape := ⟨2, ![200000, 32]⟩
abbrev S32x6x1 : Shape := ⟨3, ![32, 6, 1]⟩
abbrev S6x32 : Shape := ⟨2, ![6, 32]⟩
abbrev S_ : Shape := ⟨0, ![]⟩
abbrev S8192x32x1 : Shape := ⟨3, ![8192, 32, 1]⟩
abbrev S8192x32x32 : Shape := ⟨3, ![8192, 32, 32]⟩
abbrev S32 : Shape := ⟨1, ![32]⟩
abbrev S1x32x1 : Shape := ⟨3, ![1, 32, 1]⟩
abbrev S32x6 : Shape := ⟨2, ![32, 6]⟩
abbrev S32x1 : Shape := ⟨2, ![32, 1]⟩
abbrev S32x32 : Shape := ⟨2, ![32, 32]⟩
abbrev S1x32x32 : Shape := ⟨3, ![1, 32, 32]⟩

abbrev nBuf : Space → Nat
  | .hbm => 73
  | .vmem => 0
  | .smem => 0
  | _ => 0

abbrev bufTy : (tb : Table) → Fin (tcTables nBuf tb) → BufTy
  | .hbm, ⟨0, _⟩ => ⟨S8192x32, .i32⟩
  | .hbm, ⟨1, _⟩ => ⟨S200000x32, .f32⟩
  | .hbm, ⟨2, _⟩ => ⟨S32x6x1, .f32⟩
  | .hbm, ⟨3, _⟩ => ⟨S6x32, .f32⟩
  | .hbm, ⟨4, _⟩ => ⟨S_, .i32⟩
  | .hbm, ⟨5, _⟩ => ⟨S8192x32, .i32⟩
  | .hbm, ⟨6, _⟩ => ⟨S8192x32, .i1⟩
  | .hbm, ⟨7, _⟩ => ⟨S_, .i32⟩
  | .hbm, ⟨8, _⟩ => ⟨S8192x32, .i32⟩
  | .hbm, ⟨9, _⟩ => ⟨S8192x32, .i32⟩
  | .hbm, ⟨10, _⟩ => ⟨S8192x32, .i32⟩
  | .hbm, ⟨11, _⟩ => ⟨S8192x32x1, .i32⟩
  | .hbm, ⟨12, _⟩ => ⟨S8192x32x32, .f32⟩
  | .hbm, ⟨13, _⟩ => ⟨S_, .f32⟩
  | .hbm, ⟨14, _⟩ => ⟨S32, .f32⟩
  | .hbm, ⟨15, _⟩ => ⟨S1x32x1, .f32⟩
  | .hbm, ⟨16, _⟩ => ⟨S_, .f32⟩
  | .hbm, ⟨17, _⟩ => ⟨S1x32x1, .f32⟩
  | .hbm, ⟨18, _⟩ => ⟨S1x32x1, .f32⟩
  | .hbm, ⟨19, _⟩ => ⟨S_, .i32⟩
  | .hbm, ⟨20, _⟩ => ⟨S_, .f32⟩
  | .hbm, ⟨21, _⟩ => ⟨S32, .f32⟩
  | .hbm, ⟨22, _⟩ => ⟨S1x32x1, .f32⟩
  | .hbm, ⟨23, _⟩ => ⟨S_, .f32⟩
  | .hbm, ⟨24, _⟩ => ⟨S1x32x1, .f32⟩
  | .hbm, ⟨25, _⟩ => ⟨S1x32x1, .f32⟩
  | .hbm, ⟨26, _⟩ => ⟨S8192x32x32, .f32⟩
  | .hbm, ⟨27, _⟩ => ⟨S8192x32x32, .f32⟩
  | .hbm, ⟨28, _⟩ => ⟨S8192x32x32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32, .f32⟩
  | .hbm, ⟨34, _⟩ => ⟨S1x32x1, .f32⟩
  | .hbm, ⟨35, _⟩ => ⟨S1x32x1, .f32⟩
  | .hbm, ⟨36, _⟩ => ⟨S1x32x1, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S1x32x1, .f32⟩
  | .hbm, ⟨42, _⟩ => ⟨S1x32x1, .f32⟩
  | .hbm, ⟨43, _⟩ => ⟨S8192x32x32, .f32⟩
  | .hbm, ⟨44, _⟩ => ⟨S8192x32x32, .f32⟩
  | .hbm, ⟨45, _⟩ => ⟨S_, .f32⟩
  | .hbm, ⟨46, _⟩ => ⟨S1x32x1, .f32⟩
  | .hbm, ⟨47, _⟩ => ⟨S1x32x1, .f32⟩
  | .hbm, ⟨48, _⟩ => ⟨S1x32x1, .f32⟩
  | .hbm, ⟨49, _⟩ => ⟨S8192x32x32, .f32⟩
  | .hbm, ⟨50, _⟩ => ⟨S8192x32x32, .f32⟩
  | .hbm, ⟨51, _⟩ => ⟨S32x6, .f32⟩
  | .hbm, ⟨52, _⟩ => ⟨S_, .f32⟩
  | .hbm, ⟨53, _⟩ => ⟨S32x6, .f32⟩
  | .hbm, ⟨54, _⟩ => ⟨S32x6, .f32⟩
  | .hbm, ⟨55, _⟩ => ⟨S_, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S32x1, .f32⟩
  | .hbm, ⟨61, _⟩ => ⟨S32x6, .f32⟩
  | .hbm, ⟨62, _⟩ => ⟨S32x6, .f32⟩
  | .hbm, ⟨63, _⟩ => ⟨S32x6, .f32⟩
  | .hbm, ⟨64, _⟩ => ⟨S_, .f32⟩
  | .hbm, ⟨65, _⟩ => ⟨S32, .f32⟩
  | .hbm, ⟨66, _⟩ => ⟨S32x1, .f32⟩
  | .hbm, ⟨67, _⟩ => ⟨S32x6, .f32⟩
  | .hbm, ⟨68, _⟩ => ⟨S32x6, .f32⟩
  | .hbm, ⟨69, _⟩ => ⟨S32x32, .f32⟩
  | .hbm, ⟨70, _⟩ => ⟨S1x32x32, .f32⟩
  | .hbm, ⟨71, _⟩ => ⟨S8192x32x32, .f32⟩
  | .hbm, ⟨72, _⟩ => ⟨S8192x32x32, .f32⟩
  | _, _ => ⟨S8192x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_4 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_cst_6 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_7 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  reducesTo_S8192x32x32_S32_d0_2 : S8192x32x32.ReducesTo [0, 2] S32
  h_S_ : 0 < S_.numel
  bcast_S32_S1x32x1_1 : S32.BroadcastsInDim S1x32x1 (![1] : Fin 1 → Fin S1x32x1.rank)
  bcast_S_S1x32x1 : S_.BroadcastsInDim S1x32x1 (![] : Fin 0 → Fin S1x32x1.rank)
  bcast_S1x32x1_S8192x32x32_0_1_2 : S1x32x1.BroadcastsInDim S8192x32x32 (![0, 1, 2] : Fin 3 → Fin S8192x32x32.rank)
  shapeCasts_S32x6x1_S32x6 : S32x6x1.ShapeCasts S32x6
  bcast_S_S32x6 : S_.BroadcastsInDim S32x6 (![] : Fin 0 → Fin S32x6.rank)
  reducesTo_S32x6_S32_d1 : S32x6.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  bcast_S32x32_S1x32x32_1_2 : S32x32.BroadcastsInDim S1x32x32 (![1, 2] : Fin 2 → Fin S1x32x32.rank)
  bcast_S1x32x32_S8192x32x32_0_1_2 : S1x32x32.BroadcastsInDim S8192x32x32 (![0, 1, 2] : Fin 3 → Fin S8192x32x32.rank)
  gather_S200000x32_S8192x32x1_S8192x32x32_2_0_n_n_0_2_132_wf : GatherDims.WF S200000x32 S8192x32x1 S8192x32x32 [2] [0] [] [0] [] 2 ![1, 32]
  dot_S32x6_S6x32_S32x32_1_0_0_1_n_n_wf : DotDims.WF S32x6 S6x32 S32x32 [1] [0] [0] [1] [] []

variable [Facts₀]

def gather_S200000x32_S8192x32x1_S8192x32x32_2_0_n_n_0_2_132 : GatherDims S200000x32 S8192x32x1 S8192x32x32 where
  offsetDims := [2]
  collapsedSliceDims := [0]
  operandBatchingDims := []
  startIndicesBatchingDims := []
  startIndexMap := [0]
  indexVectorDim := 2
  sliceSizes := ![1, 32]
  wf := gather_S200000x32_S8192x32x1_S8192x32x32_2_0_n_n_0_2_132_wf
def dot_S32x6_S6x32_S32x32_1_0_0_1_n_n : DotDims S32x6 S6x32 S32x32 where
  lhsContracting := [1]
  rhsContracting := [0]
  lhsNonContracting := [0]
  rhsNonContracting := [1]
  lhsBatch := []
  rhsBatch := []
  wf := dot_S32x6_S6x32_S32x32_1_0_0_1_n_n_wf

class Facts : Prop extends Facts₀ where

variable [Facts]
-- ==== Proof.BStatsRun.lean ====
/-
  The statistics kernel's body, run once per control case. The kernel walks the 32 batch tiles in order; at the
  first tile it zeroes its two running totals (a field's sum and its sum of squares), at every tile it adds the
  tile's contribution to each and rewrites both outputs (mean and variance) from the totals so far. So there are two
  cases: the first grid point, where the totals are entered at arbitrary contents and zeroed, and every later point,
  where they are entered at what the point before left. In each case the body's stores into the two outputs and the
  two totals are recorded as lists of pieces, found by running the body symbolically.
-/
import proofs.«127497_j70282844831820_2_alg».proof.Proof.Gen.Kernel.Launch
import proofs.«127497_j70282844831820_2_alg».proof.Proof.Gen.Kernel.Skeleton
import proofs.«127497_j70282844831820_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one condition: is this the first tile? -/

/-- The condition of the body's conditional, from the grid coordinate: the tile number equals zero. -/
abbrev cond0_0 (i : grid0.Coords) : Prop := (Scalar.cmpi .ne (Scalar.extui (Scalar.cmpi .eq (BitVec.ofNat 32 (i 0).val) 0#32)) 0#32) = 1#1

/-- It holds at the first point of the grid and at no other. -/
theorem hcond0_0 : ∀ t : Fin cfg0.N, cond0_0 (grid0.coords t) ↔ t.val = 0 :=
  (by decide +kernel : ∀ t : Fin grid0.N, cond0_0 (grid0.coords t) ↔ t.val = 0)

/-! ## The two cases -/

set_option maxHeartbeats 1000000 in
/-- FIRST TILE. The pieces the body leaves in the mean output (`L1`), the variance output (`L2`), the running sum
    (`LS0`) and the running sum of squares (`LS1`), with the proof that from the tile's block `x0` in the input buffer and
    arbitrary contents everywhere else the body runs to its end leaving the input as it was and those pieces written. -/
noncomputable def kernelRun0_A (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) :
    Σ' (L1 : List (View.Piece (Elt F) S1x32x1 .f32)) (L2 : List (View.Piece (Elt F) S1x32x1 .f32)) (LS0 : List (View.Piece (Elt F) S1x32x1 .f32)), { LS1 : List (View.Piece (Elt F) S1x32x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

set_option maxHeartbeats 1000000 in
/-- A LATER TILE. The same four lists of pieces, from the tile's block `x0` and the totals `xs0`, `xs1` the tile before
    left, with the proof that the body runs to its end leaving the input as it was and those pieces written. -/
noncomputable def kernelRun0_B (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) :
    Σ' (L1 : List (View.Piece (Elt F) S1x32x1 .f32)) (L2 : List (View.Piece (Elt F) S1x32x1 .f32)) (LS0 : List (View.Piece (Elt F) S1x32x1 .f32)), { LS1 : List (View.Piece (Elt F) S1x32x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.BStatsFrame.lean ====
/-
  The statistics kernel over its 32 grid points, from ANY contents `V` the buffers hold when the region is entered.
  After the body at point `n` four buffers are known: the two outputs (mean, variance) and the two running totals
  (sum, sum of squares); each point's contents are the case's pieces read back, the later points' over the totals the
  point before left (`outsAt0`, by recursion on the point). The invariant between points holds the two totals at those
  contents; before the first point they hold anything. The other scoped buffers (the next kernel's staging buffers)
  and the generator register ride along untouched.
-/
import proofs.«127497_j70282844831820_2_alg».proof.Proof.BStatsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input window's blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

abbrev ms0_0 (t : Fin cfg0.N) : Memref sig .tc .vmem S256x32x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x1 .f32 := win0_2.stage (cfg0.slots t 2)
abbrev hs0_2 (t : Fin cfg0.N) : (ms0_2 t).IsWhole := hstage0_2 ((cfg0.slots t 2).cast nbuf0_2)
/-- The two running totals: whole scoped buffers of the kernel's own. -/
abbrev scM0_0 : Memref sig .tc .vmem S1x32x1 .f32 := Memref.whole cc0_scratch0
abbrev scM0_1 : Memref sig .tc .vmem S1x32x1 .f32 := Memref.whole cc0_scratch1
/-- Views through which the four buffers' contents are stated. -/
abbrev VO0_1 : View sig .tc .vmem S1x32x1 .f32 := (Memref.whole cc0_stg1_0 : Memref sig .tc .vmem S1x32x1 .f32).view
abbrev VO0_2 : View sig .tc .vmem S1x32x1 .f32 := (Memref.whole cc0_stg2_0 : Memref sig .tc .vmem S1x32x1 .f32).view
abbrev VS0_0 : View sig .tc .vmem S1x32x1 .f32 := scM0_0.view
abbrev VS0_1 : View sig .tc .vmem S1x32x1 .f32 := scM0_1.view

/-- The scoped buffers that are neither this kernel's staging buffers nor its totals, each whole at some contents. -/
def rest7 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant every region starts from, with the two totals as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest7 c) ∗ (∃ r, prngReg c r)) := by
  unfold Pipeline.ΦA rest7; rw [scopedRest0_eq]; simp only [scM0_0, scM0_1, owns_whole]; try rfl

/-! ## What each case leaves in the four buffers -/

/-- The pieces of this case for the mean output tile its buffer, so they cover it. -/
theorem cover0_A_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) (y : S1x32x1.Idx) :
    ∃ pc ∈ (kernelRun0_A c i arg1 harg1 arg2 harg2 arg3 harg3 arg4 harg4 arg5 harg5 hc0 x0).1, y ∈ pc.1.set :=
  View.cover_of_tiledL (kernelRun0_A c i arg1 harg1 arg2 harg2 arg3 harg3 arg4 harg4 arg5 harg5 hc0 x0).1 S1x32x1.size (by sl_kernel_rfl) y

/-- What this case leaves there: its pieces read back. -/
def out0_A_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) : Vec F S1x32x1 .f32 :=
  VO0_1.read (Elt F) (VO0_1.writes (Elt F) VO0_1.junk (kernelRun0_A c i arg1 harg1 arg2 harg2 arg3 harg3 arg4 harg4 arg5 harg5 hc0 x0).1)

/-- The pieces of this case for the variance output tile its buffer, so they cover it. -/
theorem cover0_A_2 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) (y : S1x32x1.Idx) :
    ∃ pc ∈ (kernelRun0_A c i arg1 harg1 arg2 harg2 arg3 harg3 arg4 harg4 arg5 harg5 hc0 x0).2.1, y ∈ pc.1.set :=
  View.cover_of_tiledL (kernelRun0_A c i arg1 harg1 arg2 harg2 arg3 harg3 arg4 harg4 arg5 harg5 hc0 x0).2.1 S1x32x1.size (by sl_kernel_rfl) y

/-- What this case leaves there: its pieces read back. -/
def out0_A_2 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) : Vec F S1x32x1 .f32 :=
  VO0_2.read (Elt F) (VO0_2.writes (Elt F) VO0_2.junk (kernelRun0_A c i arg1 harg1 arg2 harg2 arg3 harg3 arg4 harg4 arg5 harg5 hc0 x0).2.1)

/-- The pieces of this case for the running sum tile its buffer, so they cover it. -/
theorem scover0_A_0 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) (y : S1x32x1.Idx) :
    ∃ pc ∈ (kernelRun0_A c i arg1 harg1 arg2 harg2 arg3 harg3 arg4 harg4 arg5 harg5 hc0 x0).2.2.1, y ∈ pc.1.set :=
  View.cover_of_tiledL (kernelRun0_A c i arg1 harg1 arg2 harg2 arg3 harg3 arg4 harg4 arg5 harg5 hc0 x0).2.2.1 S1x32x1.size (by sl_kernel_rfl) y

/-- What this case leaves there: its pieces read back. -/
def sout0_A_0 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) : Vec F S1x32x1 .f32 :=
  VS0_0.read (Elt F) (VS0_0.writes (Elt F) VS0_0.junk (kernelRun0_A c i arg1 harg1 arg2 harg2 arg3 harg3 arg4 harg4 arg5 harg5 hc0 x0).2.2.1)

/-- The pieces of this case for the running sum of squares tile its buffer, so they cover it. -/
theorem scover0_A_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) (y : S1x32x1.Idx) :
    ∃ pc ∈ (kernelRun0_A c i arg1 harg1 arg2 harg2 arg3 harg3 arg4 harg4 arg5 harg5 hc0 x0).2.2.2.1, y ∈ pc.1.set :=
  View.cover_of_tiledL (kernelRun0_A c i arg1 harg1 arg2 harg2 arg3 harg3 arg4 harg4 arg5 harg5 hc0 x0).2.2.2.1 S1x32x1.size (by sl_kernel_rfl) y

/-- What this case leaves there: its pieces read back. -/
def sout0_A_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) : Vec F S1x32x1 .f32 :=
  VS0_1.read (Elt F) (VS0_1.writes (Elt F) VS0_1.junk (kernelRun0_A c i arg1 harg1 arg2 harg2 arg3 harg3 arg4 harg4 arg5 harg5 hc0 x0).2.2.2.1)

/-- The pieces of this case for the mean output tile its buffer, so they cover it. -/
theorem cover0_B_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) (y : S1x32x1.Idx) :
    ∃ pc ∈ (kernelRun0_B c i arg1 harg1 arg2 harg2 arg3 harg3 arg4 harg4 arg5 harg5 hc0 x0 xs0 xs1).1, y ∈ pc.1.set :=
  View.cover_of_tiledL (kernelRun0_B c i arg1 harg1 arg2 harg2 arg3 harg3 arg4 harg4 arg5 harg5 hc0 x0 xs0 xs1).1 S1x32x1.size (by sl_kernel_rfl) y

/-- What this case leaves there: its pieces read back. -/
def out0_B_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) : Vec F S1x32x1 .f32 :=
  VO0_1.read (Elt F) (VO0_1.writes (Elt F) VO0_1.junk (kernelRun0_B c i arg1 harg1 arg2 harg2 arg3 harg3 arg4 harg4 arg5 harg5 hc0 x0 xs0 xs1).1)

/-- The pieces of this case for the variance output tile its buffer, so they cover it. -/
theorem cover0_B_2 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) (y : S1x32x1.Idx) :
    ∃ pc ∈ (kernelRun0_B c i arg1 harg1 arg2 harg2 arg3 harg3 arg4 harg4 arg5 harg5 hc0 x0 xs0 xs1).2.1, y ∈ pc.1.set :=
  View.cover_of_tiledL (kernelRun0_B c i arg1 harg1 arg2 harg2 arg3 harg3 arg4 harg4 arg5 harg5 hc0 x0 xs0 xs1).2.1 S1x32x1.size (by sl_kernel_rfl) y

/-- What this case leaves there: its pieces read back. -/
def out0_B_2 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) : Vec F S1x32x1 .f32 :=
  VO0_2.read (Elt F) (VO0_2.writes (Elt F) VO0_2.junk (kernelRun0_B c i arg1 harg1 arg2 harg2 arg3 harg3 arg4 harg4 arg5 harg5 hc0 x0 xs0 xs1).2.1)

/-- The pieces of this case for the running sum tile its buffer, so they cover it. -/
theorem scover0_B_0 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) (y : S1x32x1.Idx) :
    ∃ pc ∈ (kernelRun0_B c i arg1 harg1 arg2 harg2 arg3 harg3 arg4 harg4 arg5 harg5 hc0 x0 xs0 xs1).2.2.1, y ∈ pc.1.set :=
  View.cover_of_tiledL (kernelRun0_B c i arg1 harg1 arg2 harg2 arg3 harg3 arg4 harg4 arg5 harg5 hc0 x0 xs0 xs1).2.2.1 S1x32x1.size (by sl_kernel_rfl) y

/-- What this case leaves there: its pieces read back. -/
def sout0_B_0 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) : Vec F S1x32x1 .f32 :=
  VS0_0.read (Elt F) (VS0_0.writes (Elt F) VS0_0.junk (kernelRun0_B c i arg1 harg1 arg2 harg2 arg3 harg3 arg4 harg4 arg5 harg5 hc0 x0 xs0 xs1).2.2.1)

/-- The pieces of this case for the running sum of squares tile its buffer, so they cover it. -/
theorem scover0_B_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) (y : S1x32x1.Idx) :
    ∃ pc ∈ (kernelRun0_B c i arg1 harg1 arg2 harg2 arg3 harg3 arg4 harg4 arg5 harg5 hc0 x0 xs0 xs1).2.2.2.1, y ∈ pc.1.set :=
  View.cover_of_tiledL (kernelRun0_B c i arg1 harg1 arg2 harg2 arg3 harg3 arg4 harg4 arg5 harg5 hc0 x0 xs0 xs1).2.2.2.1 S1x32x1.size (by sl_kernel_rfl) y

/-- What this case leaves there: its pieces read back. -/
def sout0_B_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) : Vec F S1x32x1 .f32 :=
  VS0_1.read (Elt F) (VS0_1.writes (Elt F) VS0_1.junk (kernelRun0_B c i arg1 harg1 arg2 harg2 arg3 harg3 arg4 harg4 arg5 harg5 hc0 x0 xs0 xs1).2.2.2.1)

/-! ## What the four buffers hold after each point -/

/-- After the body at point `n`: (mean output, variance output, running sum, running sum of squares). The first point
    is the zeroing case on the first block; point `n + 1` the accumulating case on its block over the totals point `n` left. -/
def outsAt0 (c : Dev nD) : (n : ℕ) → n < cfg0.N → Vec F S1x32x1 .f32 × Vec F S1x32x1 .f32 × Vec F S1x32x1 .f32 × Vec F S1x32x1 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩),
              out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩),
              sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩))
  | n + 1, hn =>
    (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 c n (Nat.lt_of_succ_lt hn)).2.2.1 (outsAt0 c n (Nat.lt_of_succ_lt hn)).2.2.2,
     out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 c n (Nat.lt_of_succ_lt hn)).2.2.1 (outsAt0 c n (Nat.lt_of_succ_lt hn)).2.2.2,
     sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 c n (Nat.lt_of_succ_lt hn)).2.2.1 (outsAt0 c n (Nat.lt_of_succ_lt hn)).2.2.2,
     sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) :
    outsAt0 V c t.val t.isLt = (out0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk0 V c 0 t),
      out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk0 V c 0 t),
      sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk0 V c 0 t),
      sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk0 V c 0 t)) := by
  obtain ⟨n, hn⟩ := t
  cases n with
  | zero => exact rfl
  | succ n => exact absurd h0 (Nat.succ_ne_zero n)

/-- `outsAt0` at a later point: the accumulating case over what the point before left. -/
theorem outsAt0_B (c : Dev nD) (t : Fin cfg0.N) (h0 : ¬t.val = 0) :
    outsAt0 V c t.val t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact rfl

/-! ## The invariant between points -/

/-- Before position `n`: at the start the common invariant (the totals at anything); afterwards the two totals at what
    the point before left, the other scoped buffers at something, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest7 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest7 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest7 c) ∗ (∃ r, prngReg c r)) := by
  cases n with
  | zero => exact absurd rfl hz
  | succ n => rfl

/-! ## The proof data -/

/-- On core `c`: the arrays as the region finds them; after the body at point `t` the input's buffer at its block and
    the two outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the input's memref holds its block; at the first point the invariant hands over the totals
    at anything and the zeroing case runs, at a later point it hands them over at what the point before left and the
    accumulating case runs; either way the totals go back into the invariant at this point's contents and the two
    outputs are left at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [after0_0, after0_1, after0_2]
  by_cases h0 : t.val = 0
  · rw [outsAt0_A V c t h0]
    unfold out0_A_1 out0_A_2 sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩⟩
    iapply ((kernelRun0_A c (grid0.coords t) _ _ _ _ _ _ _ _ _ _ ((hcond0_0 t).mpr h0) (iblk0 V c 0 t)).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 c _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _ _ _)
    unfold owns; iexists _; isplitr
    swap; · iexact H2
    ipureintro; exact View.read_writes_of_cover _ _ _ _ _ (cover0_A_2 c _ _ _ _ _ _ _ _ _ _ _ _ _)
  · rw [outsAt0_B V c t h0]
    unfold out0_B_1 out0_B_2 sout0_B_0 sout0_B_1; (try dsimp only)
    rw [PhiS_castSucc V c t, PhiS_pos V c _ _ h0]
    iintro ⟨⟨⟨HS0, HS1, HR⟩, Hg⟩, Ho, ⟨%d0, H0⟩, ⟨%d1, H1⟩, ⟨%d2, H2⟩⟩
    iapply ((kernelRun0_B c (grid0.coords t) _ _ _ _ _ _ _ _ _ _ (fun h => h0 ((hcond0_0 t).mp h)) (iblk0 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_B_0 c _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _ _ _)
    unfold owns; iexists _; isplitr
    swap; · iexact H2
    ipureintro; exact View.read_writes_of_cover _ _ _ _ _ (cover0_B_2 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The common invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the common one back: the totals' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.Kernel.Hand

end
-- ==== Proof.BNormRegion.lean ====
/-
  The normalising kernel as one region of the program: on a grid of 32 points, each point reads one block of 256
  samples of the embeddings together with the per-field mean, the per-field variance and the per-(field, lane) scale,
  and writes the block of  ((x − mean) · rsqrt (var + ε)) · scale  back. Stated at any entry contents `V` of the
  core's buffers: what every window's staging buffer holds before and after the body at each point, the body's
  triple, and the body obligation of the pipeline's proof data.
-/
import proofs.«127497_j70282844831820_2_alg».proof.Proof.Gen.Kernel.Launch
import proofs.«127497_j70282844831820_2_alg».proof.Proof.Gen.Kernel.Skeleton
import proofs.«127497_j70282844831820_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an input not fetched at
    a point has the block index it had at the point before, so the block it holds is still this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an input not fetched at
    a point has the block index it had at the point before, so the block it holds is still this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an input not fetched at
    a point has the block index it had at the point before, so the block it holds is still this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an input not fetched at
    a point has the block index it had at the point before, so the block it holds is still this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x32x32 := Rect.unit (s := S256x32x32) ![0, 0, 0] S256x32x32.size inb_S256x32x32_S256x32x32_0_0_0
abbrev r1_1 : Rect S1x32x1 := Rect.unit (s := S1x32x1) ![0, 0, 0] S1x32x1.size inb_S1x32x1_S1x32x1_0_0_0
abbrev r1_2 : Rect S32x32 := Rect.unit (s := S32x32) ![0, 0] S32x32.size inb_S32x32_S32x32_0_0

/-! ## What the body leaves in the output window's buffer -/

/-- Window 4's staging buffer after the body, from the input windows' blocks: its one store, of the whole block. -/
def out1_4 (x0 : Vec F S256x32x32 .f32) (x1 x2 : Vec F S1x32x1 .f32) (x3 : Vec F S32x32 .f32) : Vec F S256x32x32 .f32 :=
  View.canon [⟨r1_0, k1_pay1 (View.ld x0 r1_0) (View.ld x1 r1_1) (View.ld x2 r1_1) (View.ld x3 r1_2)⟩]

/-- The store is of the whole buffer, so it covers it. -/
theorem cover1_4 (p0 : Vec F S256x32x32 .f32) (y : S256x32x32.Idx) :
    ∃ pc ∈ ([⟨r1_0, p0⟩] : List (View.Piece (Elt F) S256x32x32 .f32)), y ∈ pc.1.set :=
  View.cover_of_tiled [⟨r1_0, p0⟩] S256x32x32.size (by rfl) y

/-! ## The body's triple -/

set_option maxHeartbeats 1000000 in
/-- The kernel body on whole staging memrefs, the inputs' at read contents `xW` and the output's at anything, runs to
    the continuation holding the inputs' as they were and the output's at `out1_4` of the inputs'. The body reads
    the output buffer once before storing it whole; what it reads there is used by nothing. -/
theorem sound_kernel1 (c : Dev nD) (E : Set ℕ) (i : grid1.Coords)
    (arg1 : Memref sig .tc .vmem S256x32x32 .f32) (harg1 : arg1.IsWhole) (arg2 : Memref sig .tc .vmem S1x32x1 .f32) (harg2 : arg2.IsWhole)
    (arg3 : Memref sig .tc .vmem S1x32x1 .f32) (harg3 : arg3.IsWhole) (arg4 : Memref sig .tc .vmem S32x32 .f32) (harg4 : arg4.IsWhole)
    (arg5 : Memref sig .tc .vmem S256x32x32 .f32) (harg5 : arg5.IsWhole)
    (x0 : Vec F S256x32x32 .f32) (x1 x2 : Vec F S1x32x1 .f32) (x3 : Vec F S32x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them (`V`); after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The whole kernel program as a run: the host operations (the gather of the embedding rows and the small softmax-and-
  product that builds the per-(field, lane) scale), then the statistics kernel, then the normalising kernel. The
  buffers' contents are followed from the launch through the three stretches: after the host operations; after the
  first kernel, whose two outputs (mean, variance) are what its write-backs leave; after the second kernel, whose
  output is what its write-backs leave. The run ends with every unscoped buffer at the last of these contents; no
  stretch writes an argument, so each argument ends as launched.
-/
import proofs.«127497_j70282844831820_2_alg».proof.Proof.BStatsFrame
import proofs.«127497_j70282844831820_2_alg».proof.Proof.BNormRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host operations (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered with every unscoped buffer at the contents before it, left with them at
    the contents after it. Its arrays are split out of the unscoped buffers at entry and put back at exit; the generator
    register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last (Pipeline.pin (pcfgs (F := F)) adm 0).N)
        ⊢ (iprop(Pipeline.scopedRest (Ix := Unit) (Name := ℕ) (U := UR sig nD τ) (Lvl := ℕ) (Val := Elt F) spec0 c ∗ ∃ r, prngReg c r) : sProp 𝕄) :=
      hout0 (V1 m ρ) c
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at the contents before it, left with them at
    the contents after it. Its arrays are split out of the unscoped buffers at entry and put back at exit; the generator
    register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.StatsRun.lean ====
/-
  The statistics kernel's body, run once per control case. The kernel walks the 32 batch tiles in order; at the
  first tile it zeroes its two running totals (a field's sum and its sum of squares), at every tile it adds the
  tile's contribution to each and rewrites both outputs (mean and variance) from the totals so far. So there are two
  cases: the first grid point, where the totals are entered at arbitrary contents and zeroed, and every later point,
  where they are entered at what the point before left. In each case the body's stores into the two outputs and the
  two totals are recorded as lists of pieces, found by running the body symbolically.
-/
import proofs.«127497_j70282844831820_2_alg».proof.Proof.Gen.KernelIdeal.Launch
import proofs.«127497_j70282844831820_2_alg».proof.Proof.Gen.KernelIdeal.Skeleton
import proofs.«127497_j70282844831820_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one condition: is this the first tile? -/

/-- The condition of the body's conditional, from the grid coordinate: the tile number equals zero. -/
abbrev cond0_0 (i : grid0.Coords) : Prop := (Scalar.cmpi .ne (Scalar.extui (Scalar.cmpi .eq (BitVec.ofNat 32 (i 0).val) 0#32)) 0#32) = 1#1

/-- It holds at the first point of the grid and at no other. -/
theorem hcond0_0 : ∀ t : Fin cfg0.N, cond0_0 (grid0.coords t) ↔ t.val = 0 :=
  (by decide +kernel : ∀ t : Fin grid0.N, cond0_0 (grid0.coords t) ↔ t.val = 0)

/-! ## The two cases -/

set_option maxHeartbeats 1000000 in
/-- FIRST TILE. The pieces the body leaves in the mean output (`L1`), the variance output (`L2`), the running sum
    (`LS0`) and the running sum of squares (`LS1`), with the proof that from the tile's block `x0` in the input buffer and
    arbitrary contents everywhere else the body runs to its end leaving the input as it was and those pieces written. -/
noncomputable def kernelRun0_A (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) :
    Σ' (L1 : List (View.Piece (Elt F) S1x32x1 .f32)) (L2 : List (View.Piece (Elt F) S1x32x1 .f32)) (LS0 : List (View.Piece (Elt F) S1x32x1 .f32)), { LS1 : List (View.Piece (Elt F) S1x32x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

set_option maxHeartbeats 1000000 in
/-- A LATER TILE. The same four lists of pieces, from the tile's block `x0` and the totals `xs0`, `xs1` the tile before
    left, with the proof that the body runs to its end leaving the input as it was and those pieces written. -/
noncomputable def kernelRun0_B (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) :
    Σ' (L1 : List (View.Piece (Elt F) S1x32x1 .f32)) (L2 : List (View.Piece (Elt F) S1x32x1 .f32)) (LS0 : List (View.Piece (Elt F) S1x32x1 .f32)), { LS1 : List (View.Piece (Elt F) S1x32x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.StatsFrame.lean ====
/-
  The statistics kernel over its 32 grid points, from ANY contents `V` the buffers hold when the region is entered.
  After the body at point `n` four buffers are known: the two outputs (mean, variance) and the two running totals
  (sum, sum of squares); each point's contents are the case's pieces read back, the later points' over the totals the
  point before left (`outsAt0`, by recursion on the point). The invariant between points holds the two totals at those
  contents; before the first point they hold anything. The other scoped buffers (the next kernel's staging buffers)
  and the generator register ride along untouched.
-/
import proofs.«127497_j70282844831820_2_alg».proof.Proof.StatsRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input window's blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

abbrev ms0_0 (t : Fin cfg0.N) : Memref sig .tc .vmem S256x32x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x1 .f32 := win0_2.stage (cfg0.slots t 2)
abbrev hs0_2 (t : Fin cfg0.N) : (ms0_2 t).IsWhole := hstage0_2 ((cfg0.slots t 2).cast nbuf0_2)
/-- The two running totals: whole scoped buffers of the kernel's own. -/
abbrev scM0_0 : Memref sig .tc .vmem S1x32x1 .f32 := Memref.whole cc0_scratch0
abbrev scM0_1 : Memref sig .tc .vmem S1x32x1 .f32 := Memref.whole cc0_scratch1
/-- Views through which the four buffers' contents are stated. -/
abbrev VO0_1 : View sig .tc .vmem S1x32x1 .f32 := (Memref.whole cc0_stg1_0 : Memref sig .tc .vmem S1x32x1 .f32).view
abbrev VO0_2 : View sig .tc .vmem S1x32x1 .f32 := (Memref.whole cc0_stg2_0 : Memref sig .tc .vmem S1x32x1 .f32).view
abbrev VS0_0 : View sig .tc .vmem S1x32x1 .f32 := scM0_0.view
abbrev VS0_1 : View sig .tc .vmem S1x32x1 .f32 := scM0_1.view

/-- The scoped buffers that are neither this kernel's staging buffers nor its totals, each whole at some contents. -/
def rest7 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant every region starts from, with the two totals as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest7 c) ∗ (∃ r, prngReg c r)) := by
  unfold Pipeline.ΦA rest7; rw [scopedRest0_eq]; simp only [scM0_0, scM0_1, owns_whole]; try rfl

/-! ## What each case leaves in the four buffers -/

/-- The pieces of this case for the mean output tile its buffer, so they cover it. -/
theorem cover0_A_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) (y : S1x32x1.Idx) :
    ∃ pc ∈ (kernelRun0_A c i arg1 harg1 arg2 harg2 arg3 harg3 arg4 harg4 arg5 harg5 hc0 x0).1, y ∈ pc.1.set :=
  View.cover_of_tiledL (kernelRun0_A c i arg1 harg1 arg2 harg2 arg3 harg3 arg4 harg4 arg5 harg5 hc0 x0).1 S1x32x1.size (by sl_kernel_rfl) y

/-- What this case leaves there: its pieces read back. -/
def out0_A_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) : Vec F S1x32x1 .f32 :=
  VO0_1.read (Elt F) (VO0_1.writes (Elt F) VO0_1.junk (kernelRun0_A c i arg1 harg1 arg2 harg2 arg3 harg3 arg4 harg4 arg5 harg5 hc0 x0).1)

/-- The pieces of this case for the variance output tile its buffer, so they cover it. -/
theorem cover0_A_2 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) (y : S1x32x1.Idx) :
    ∃ pc ∈ (kernelRun0_A c i arg1 harg1 arg2 harg2 arg3 harg3 arg4 harg4 arg5 harg5 hc0 x0).2.1, y ∈ pc.1.set :=
  View.cover_of_tiledL (kernelRun0_A c i arg1 harg1 arg2 harg2 arg3 harg3 arg4 harg4 arg5 harg5 hc0 x0).2.1 S1x32x1.size (by sl_kernel_rfl) y

/-- What this case leaves there: its pieces read back. -/
def out0_A_2 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) : Vec F S1x32x1 .f32 :=
  VO0_2.read (Elt F) (VO0_2.writes (Elt F) VO0_2.junk (kernelRun0_A c i arg1 harg1 arg2 harg2 arg3 harg3 arg4 harg4 arg5 harg5 hc0 x0).2.1)

/-- The pieces of this case for the running sum tile its buffer, so they cover it. -/
theorem scover0_A_0 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) (y : S1x32x1.Idx) :
    ∃ pc ∈ (kernelRun0_A c i arg1 harg1 arg2 harg2 arg3 harg3 arg4 harg4 arg5 harg5 hc0 x0).2.2.1, y ∈ pc.1.set :=
  View.cover_of_tiledL (kernelRun0_A c i arg1 harg1 arg2 harg2 arg3 harg3 arg4 harg4 arg5 harg5 hc0 x0).2.2.1 S1x32x1.size (by sl_kernel_rfl) y

/-- What this case leaves there: its pieces read back. -/
def sout0_A_0 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) : Vec F S1x32x1 .f32 :=
  VS0_0.read (Elt F) (VS0_0.writes (Elt F) VS0_0.junk (kernelRun0_A c i arg1 harg1 arg2 harg2 arg3 harg3 arg4 harg4 arg5 harg5 hc0 x0).2.2.1)

/-- The pieces of this case for the running sum of squares tile its buffer, so they cover it. -/
theorem scover0_A_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) (y : S1x32x1.Idx) :
    ∃ pc ∈ (kernelRun0_A c i arg1 harg1 arg2 harg2 arg3 harg3 arg4 harg4 arg5 harg5 hc0 x0).2.2.2.1, y ∈ pc.1.set :=
  View.cover_of_tiledL (kernelRun0_A c i arg1 harg1 arg2 harg2 arg3 harg3 arg4 harg4 arg5 harg5 hc0 x0).2.2.2.1 S1x32x1.size (by sl_kernel_rfl) y

/-- What this case leaves there: its pieces read back. -/
def sout0_A_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) : Vec F S1x32x1 .f32 :=
  VS0_1.read (Elt F) (VS0_1.writes (Elt F) VS0_1.junk (kernelRun0_A c i arg1 harg1 arg2 harg2 arg3 harg3 arg4 harg4 arg5 harg5 hc0 x0).2.2.2.1)

/-- The pieces of this case for the mean output tile its buffer, so they cover it. -/
theorem cover0_B_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) (y : S1x32x1.Idx) :
    ∃ pc ∈ (kernelRun0_B c i arg1 harg1 arg2 harg2 arg3 harg3 arg4 harg4 arg5 harg5 hc0 x0 xs0 xs1).1, y ∈ pc.1.set :=
  View.cover_of_tiledL (kernelRun0_B c i arg1 harg1 arg2 harg2 arg3 harg3 arg4 harg4 arg5 harg5 hc0 x0 xs0 xs1).1 S1x32x1.size (by sl_kernel_rfl) y

/-- What this case leaves there: its pieces read back. -/
def out0_B_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) : Vec F S1x32x1 .f32 :=
  VO0_1.read (Elt F) (VO0_1.writes (Elt F) VO0_1.junk (kernelRun0_B c i arg1 harg1 arg2 harg2 arg3 harg3 arg4 harg4 arg5 harg5 hc0 x0 xs0 xs1).1)

/-- The pieces of this case for the variance output tile its buffer, so they cover it. -/
theorem cover0_B_2 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) (y : S1x32x1.Idx) :
    ∃ pc ∈ (kernelRun0_B c i arg1 harg1 arg2 harg2 arg3 harg3 arg4 harg4 arg5 harg5 hc0 x0 xs0 xs1).2.1, y ∈ pc.1.set :=
  View.cover_of_tiledL (kernelRun0_B c i arg1 harg1 arg2 harg2 arg3 harg3 arg4 harg4 arg5 harg5 hc0 x0 xs0 xs1).2.1 S1x32x1.size (by sl_kernel_rfl) y

/-- What this case leaves there: its pieces read back. -/
def out0_B_2 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) : Vec F S1x32x1 .f32 :=
  VO0_2.read (Elt F) (VO0_2.writes (Elt F) VO0_2.junk (kernelRun0_B c i arg1 harg1 arg2 harg2 arg3 harg3 arg4 harg4 arg5 harg5 hc0 x0 xs0 xs1).2.1)

/-- The pieces of this case for the running sum tile its buffer, so they cover it. -/
theorem scover0_B_0 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) (y : S1x32x1.Idx) :
    ∃ pc ∈ (kernelRun0_B c i arg1 harg1 arg2 harg2 arg3 harg3 arg4 harg4 arg5 harg5 hc0 x0 xs0 xs1).2.2.1, y ∈ pc.1.set :=
  View.cover_of_tiledL (kernelRun0_B c i arg1 harg1 arg2 harg2 arg3 harg3 arg4 harg4 arg5 harg5 hc0 x0 xs0 xs1).2.2.1 S1x32x1.size (by sl_kernel_rfl) y

/-- What this case leaves there: its pieces read back. -/
def sout0_B_0 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) : Vec F S1x32x1 .f32 :=
  VS0_0.read (Elt F) (VS0_0.writes (Elt F) VS0_0.junk (kernelRun0_B c i arg1 harg1 arg2 harg2 arg3 harg3 arg4 harg4 arg5 harg5 hc0 x0 xs0 xs1).2.2.1)

/-- The pieces of this case for the running sum of squares tile its buffer, so they cover it. -/
theorem scover0_B_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) (y : S1x32x1.Idx) :
    ∃ pc ∈ (kernelRun0_B c i arg1 harg1 arg2 harg2 arg3 harg3 arg4 harg4 arg5 harg5 hc0 x0 xs0 xs1).2.2.2.1, y ∈ pc.1.set :=
  View.cover_of_tiledL (kernelRun0_B c i arg1 harg1 arg2 harg2 arg3 harg3 arg4 harg4 arg5 harg5 hc0 x0 xs0 xs1).2.2.2.1 S1x32x1.size (by sl_kernel_rfl) y

/-- What this case leaves there: its pieces read back. -/
def sout0_B_1 (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) : Vec F S1x32x1 .f32 :=
  VS0_1.read (Elt F) (VS0_1.writes (Elt F) VS0_1.junk (kernelRun0_B c i arg1 harg1 arg2 harg2 arg3 harg3 arg4 harg4 arg5 harg5 hc0 x0 xs0 xs1).2.2.2.1)

/-! ## What the four buffers hold after each point -/

/-- After the body at point `n`: (mean output, variance output, running sum, running sum of squares). The first point
    is the zeroing case on the first block; point `n + 1` the accumulating case on its block over the totals point `n` left. -/
def outsAt0 (c : Dev nD) : (n : ℕ) → n < cfg0.N → Vec F S1x32x1 .f32 × Vec F S1x32x1 .f32 × Vec F S1x32x1 .f32 × Vec F S1x32x1 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩),
              out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩),
              sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩))
  | n + 1, hn =>
    (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 c n (Nat.lt_of_succ_lt hn)).2.2.1 (outsAt0 c n (Nat.lt_of_succ_lt hn)).2.2.2,
     out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 c n (Nat.lt_of_succ_lt hn)).2.2.1 (outsAt0 c n (Nat.lt_of_succ_lt hn)).2.2.2,
     sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 c n (Nat.lt_of_succ_lt hn)).2.2.1 (outsAt0 c n (Nat.lt_of_succ_lt hn)).2.2.2,
     sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) :
    outsAt0 V c t.val t.isLt = (out0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk0 V c 0 t),
      out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk0 V c 0 t),
      sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk0 V c 0 t),
      sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk0 V c 0 t)) := by
  obtain ⟨n, hn⟩ := t
  cases n with
  | zero => exact rfl
  | succ n => exact absurd h0 (Nat.succ_ne_zero n)

/-- `outsAt0` at a later point: the accumulating case over what the point before left. -/
theorem outsAt0_B (c : Dev nD) (t : Fin cfg0.N) (h0 : ¬t.val = 0) :
    outsAt0 V c t.val t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact rfl

/-! ## The invariant between points -/

/-- Before position `n`: at the start the common invariant (the totals at anything); afterwards the two totals at what
    the point before left, the other scoped buffers at something, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest7 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest7 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest7 c) ∗ (∃ r, prngReg c r)) := by
  cases n with
  | zero => exact absurd rfl hz
  | succ n => rfl

/-! ## The proof data -/

/-- On core `c`: the arrays as the region finds them; after the body at point `t` the input's buffer at its block and
    the two outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point: the input's memref holds its block; at the first point the invariant hands over the totals
    at anything and the zeroing case runs, at a later point it hands them over at what the point before left and the
    accumulating case runs; either way the totals go back into the invariant at this point's contents and the two
    outputs are left at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [after0_0, after0_1, after0_2]
  by_cases h0 : t.val = 0
  · rw [outsAt0_A V c t h0]
    unfold out0_A_1 out0_A_2 sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩⟩
    iapply ((kernelRun0_A c (grid0.coords t) _ _ _ _ _ _ _ _ _ _ ((hcond0_0 t).mpr h0) (iblk0 V c 0 t)).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 c _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _ _ _)
    unfold owns; iexists _; isplitr
    swap; · iexact H2
    ipureintro; exact View.read_writes_of_cover _ _ _ _ _ (cover0_A_2 c _ _ _ _ _ _ _ _ _ _ _ _ _)
  · rw [outsAt0_B V c t h0]
    unfold out0_B_1 out0_B_2 sout0_B_0 sout0_B_1; (try dsimp only)
    rw [PhiS_castSucc V c t, PhiS_pos V c _ _ h0]
    iintro ⟨⟨⟨HS0, HS1, HR⟩, Hg⟩, Ho, ⟨%d0, H0⟩, ⟨%d1, H1⟩, ⟨%d2, H2⟩⟩
    iapply ((kernelRun0_B c (grid0.coords t) _ _ _ _ _ _ _ _ _ _ (fun h => h0 ((hcond0_0 t).mp h)) (iblk0 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_B_0 c _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _ _ _)
    unfold owns; iexists _; isplitr
    swap; · iexact H2
    ipureintro; exact View.read_writes_of_cover _ _ _ _ _ (cover0_B_2 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The common invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the common one back: the totals' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Hand

end
-- ==== Proof.NormRegion.lean ====
/-
  The normalising kernel as one region of the program: on a grid of 32 points, each point reads one block of 256
  samples of the embeddings together with the per-field mean, the per-field variance and the per-(field, lane) scale,
  and writes the block of  ((x − mean) · rsqrt (var + ε)) · scale  back. Stated at any entry contents `V` of the
  core's buffers: what every window's staging buffer holds before and after the body at each point, the body's
  triple, and the body obligation of the pipeline's proof data.
-/
import proofs.«127497_j70282844831820_2_alg».proof.Proof.Gen.KernelIdeal.Launch
import proofs.«127497_j70282844831820_2_alg».proof.Proof.Gen.KernelIdeal.Skeleton
import proofs.«127497_j70282844831820_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an input not fetched at
    a point has the block index it had at the point before, so the block it holds is still this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an input not fetched at
    a point has the block index it had at the point before, so the block it holds is still this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an input not fetched at
    a point has the block index it had at the point before, so the block it holds is still this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an input not fetched at
    a point has the block index it had at the point before, so the block it holds is still this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x32x32 := Rect.unit (s := S256x32x32) ![0, 0, 0] S256x32x32.size inb_S256x32x32_S256x32x32_0_0_0
abbrev r1_1 : Rect S1x32x1 := Rect.unit (s := S1x32x1) ![0, 0, 0] S1x32x1.size inb_S1x32x1_S1x32x1_0_0_0
abbrev r1_2 : Rect S32x32 := Rect.unit (s := S32x32) ![0, 0] S32x32.size inb_S32x32_S32x32_0_0

/-! ## What the body leaves in the output window's buffer -/

/-- Window 4's staging buffer after the body, from the input windows' blocks: its one store, of the whole block. -/
def out1_4 (x0 : Vec F S256x32x32 .f32) (x1 x2 : Vec F S1x32x1 .f32) (x3 : Vec F S32x32 .f32) : Vec F S256x32x32 .f32 :=
  View.canon [⟨r1_0, k1_pay1 (View.ld x0 r1_0) (View.ld x1 r1_1) (View.ld x2 r1_1) (View.ld x3 r1_2)⟩]

/-- The store is of the whole buffer, so it covers it. -/
theorem cover1_4 (p0 : Vec F S256x32x32 .f32) (y : S256x32x32.Idx) :
    ∃ pc ∈ ([⟨r1_0, p0⟩] : List (View.Piece (Elt F) S256x32x32 .f32)), y ∈ pc.1.set :=
  View.cover_of_tiled [⟨r1_0, p0⟩] S256x32x32.size (by rfl) y

/-! ## The body's triple -/

set_option maxHeartbeats 1000000 in
/-- The kernel body on whole staging memrefs, the inputs' at read contents `xW` and the output's at anything, runs to
    the continuation holding the inputs' as they were and the output's at `out1_4` of the inputs'. The body reads
    the output buffer once before storing it whole; what it reads there is used by nothing. -/
theorem sound_kernel1 (c : Dev nD) (E : Set ℕ) (i : grid1.Coords)
    (arg1 : Memref sig .tc .vmem S256x32x32 .f32) (harg1 : arg1.IsWhole) (arg2 : Memref sig .tc .vmem S1x32x1 .f32) (harg2 : arg2.IsWhole)
    (arg3 : Memref sig .tc .vmem S1x32x1 .f32) (harg3 : arg3.IsWhole) (arg4 : Memref sig .tc .vmem S32x32 .f32) (harg4 : arg4.IsWhole)
    (arg5 : Memref sig .tc .vmem S256x32x32 .f32) (harg5 : arg5.IsWhole)
    (x0 : Vec F S256x32x32 .f32) (x1 x2 : Vec F S1x32x1 .f32) (x3 : Vec F S32x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them (`V`); after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The whole kernel program as a run: the host operations (the gather of the embedding rows and the small softmax-and-
  product that builds the per-(field, lane) scale), then the statistics kernel, then the normalising kernel. The
  buffers' contents are followed from the launch through the three stretches: after the host operations; after the
  first kernel, whose two outputs (mean, variance) are what its write-backs leave; after the second kernel, whose
  output is what its write-backs leave. The run ends with every unscoped buffer at the last of these contents; no
  stretch writes an argument, so each argument ends as launched.
-/
import proofs.«127497_j70282844831820_2_alg».proof.Proof.StatsFrame
import proofs.«127497_j70282844831820_2_alg».proof.Proof.NormRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host operations (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered with every unscoped buffer at the contents before it, left with them at
    the contents after it. Its arrays are split out of the unscoped buffers at entry and put back at exit; the generator
    register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last (Pipeline.pin (pcfgs (F := F)) adm 0).N)
        ⊢ (iprop(Pipeline.scopedRest (Ix := Unit) (Name := ℕ) (U := UR sig nD τ) (Lvl := ℕ) (Val := Elt F) spec0 c ∗ ∃ r, prngReg c r) : sProp 𝕄) :=
      hout0 (V1 m ρ) c
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at the contents before it, left with them at
    the contents after it. Its arrays are split out of the unscoped buffers at entry and put back at exit; the generator
    register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.RefRun.lean ====
/-
  The reference program's run. Its @main is a straight line of 69 host operations once the two outlined
  functions are substituted at their calls: the variance function (twenty operations and a call of the
  selection function, three more) runs into buffers of its own. Every weakly fair execution terminates with
  each buffer at the operations' fold over the launch contents; the result buffer then holds one composed
  term of the four argument arrays, written below as
    out = ((E − mean E) · rsqrt (var E + ε)) · coef,
  with E the gathered rows, mean and var the per-field statistics over samples and lanes, and coef the
  softmax-weighted combination of the second pair of arguments, broadcast over the samples.
-/
import proofs.«127497_j70282844831820_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

/-- @main's 69 operations in order, the calls substituted: sixteen of its own (the index wrap, the gather, the
    mean), the variance function's twenty over its call's buffers, the selection function's three over the
    nested call's, then @main's remaining thirty (centre, scale by the reciprocal root, the coefficient chain,
    the final product). -/
abbrev ops : List (HloOp τ sig (Elt F)) :=
  [ nullary main_c (constantI S_ 32 0#32),
    unary main_c main_v0 (broadcastInDim S8192x32 ![] bcast_S_S8192x32 : (⟨S_, .i32⟩ : BufTy).Contents (Elt F) → (⟨S8192x32, .i32⟩ : BufTy).Contents (Elt F)),
    binary main_arg0 main_v0 main_v1 (cmpi .slt : (⟨S8192x32, .i32⟩ : BufTy).Contents (Elt F) → (⟨S8192x32, .i32⟩ : BufTy).Contents (Elt F) → (⟨S8192x32, .i1⟩ : BufTy).Contents (Elt F)),
    nullary main_c_0 (constantI S_ 32 200000#32),
    unary main_c_0 main_v2 (broadcastInDim S8192x32 ![] bcast_S_S8192x32 : (⟨S_, .i32⟩ : BufTy).Contents (Elt F) → (⟨S8192x32, .i32⟩ : BufTy).Contents (Elt F)),
    binary main_arg0 main_v2 main_v3 (addi : (⟨S8192x32, .i32⟩ : BufTy).Contents (Elt F) → (⟨S8192x32, .i32⟩ : BufTy).Contents (Elt F) → (⟨S8192x32, .i32⟩ : BufTy).Contents (Elt F)),
    ternary main_v1 main_v3 main_arg0 main_v4 (select : (⟨S8192x32, .i1⟩ : BufTy).Contents (Elt F) → (⟨S8192x32, .i32⟩ : BufTy).Contents (Elt F) → (⟨S8192x32, .i32⟩ : BufTy).Contents (Elt F) → (⟨S8192x32, .i32⟩ : BufTy).Contents (Elt F)),
    unary main_v4 main_v5 (broadcastInDim S8192x32x1 ![0, 1] bcast_S8192x32_S8192x32x1_0_1 : (⟨S8192x32, .i32⟩ : BufTy).Contents (Elt F) → (⟨S8192x32x1, .i32⟩ : BufTy).Contents (Elt F)),
    binary main_arg1 main_v5 main_v6 ((fun x i => Host.gather gather_S200000x32_S8192x32x1_S8192x32x32_2_0_n_n_0_2_132 x i) : (⟨S200000x32, .f32⟩ : BufTy).Contents (Elt F) → (⟨S8192x32x1, .i32⟩ : BufTy).Contents (Elt F) → (⟨S8192x32x32, .f32⟩ : BufTy).Contents (Elt F)),
    nullary main_cst (constant S_ .f32 0x00000000#32),
    binary main_v6 main_cst main_v7 ((fun x v => Host.reduceAdd x v reducesTo_S8192x32x32_S32_d0_2 h_S_) : (⟨S8192x32x32, .f32⟩ : BufTy).Contents (Elt F) → (⟨S_, .f32⟩ : BufTy).Contents (Elt F) → (⟨S32, .f32⟩ : BufTy).Contents (Elt F)),
    unary main_v7 main_v8 (broadcastInDim S1x32x1 ![1] bcast_S32_S1x32x1_1 : (⟨S32, .f32⟩ : BufTy).Contents (Elt F) → (⟨S1x32x1, .f32⟩ : BufTy).Contents (Elt F)),
    nullary main_cst_1 (constant S_ .f32 0x48800000#32),
    unary main_cst_1 main_v9 (broadcastInDim S1x32x1 ![] bcast_S_S1x32x1 : (⟨S_, .f32⟩ : BufTy).Contents (Elt F) → (⟨S1x32x1, .f32⟩ : BufTy).Contents (Elt F)),
    binary main_v8 main_v9 main_v10 (Host.divf : (⟨S1x32x1, .f32⟩ : BufTy).Contents (Elt F) → (⟨S1x32x1, .f32⟩ : BufTy).Contents (Elt F) → (⟨S1x32x1, .f32⟩ : BufTy).Contents (Elt F)),
    nullary main_c_2 (constantI S_ 32 0#32),
    TRef.nullary main_call0.cst (constant S_ .f32 0x00000000#32),
    TRef.binary (.of main_v6 : TRef sig ⟨S8192x32x32, .f32⟩) main_call0.cst main_call0.v0 (fun x v => Host.reduceAdd x v reducesTo_S8192x32x32_S32_d0_2 h_S_),
    TRef.unary main_call0.v0 main_call0.v1 (broadcastInDim S1x32x1 ![1] bcast_S32_S1x32x1_1),
    TRef.nullary main_call0.cst_0 (constant S_ .f32 0x48800000#32),
    TRef.unary main_call0.cst_0 main_call0.v2 (broadcastInDim S1x32x1 ![] bcast_S_S1x32x1),
    TRef.binary main_call0.v1 main_call0.v2 main_call0.v3 Host.divf,
    TRef.unary main_call0.v3 main_call0.v4 (broadcastInDim S8192x32x32 ![0, 1, 2] bcast_S1x32x1_S8192x32x32_0_1_2),
    TRef.binary (.of main_v6 : TRef sig ⟨S8192x32x32, .f32⟩) main_call0.v4 main_call0.v5 subf,
    TRef.binary main_call0.v5 main_call0.v5 main_call0.v6 mulf,
    TRef.unary (.of main_c_2 : TRef sig ⟨S_, .i32⟩) main_call0.v7 (sitofp .f32),
    TRef.nullary main_call0.cst_1 (constant S_ .f32 0x48800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x32x32_S32_d0_2 h_S_),
    TRef.unary main_call0.v9 main_call0.v10 (broadcastInDim S1x32x1 ![1] bcast_S32_S1x32x1_1),
    TRef.unary main_call0.v8 main_call0.v11 (broadcastInDim S1x32x1 ![] bcast_S_S1x32x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x32x1 ![] bcast_S_S1x32x1),
    TRef.ternary main_call0.v13 main_call0.v12 main_call0.call0.v1 main_call0.call0.v2 (fun p a b => select (broadcastInDim S1x32x1 ![] bcast_S_S1x32x1 p) a b),
    unary main_v10 main_v12 (broadcastInDim S8192x32x32 ![0, 1, 2] bcast_S1x32x1_S8192x32x32_0_1_2 : (⟨S1x32x1, .f32⟩ : BufTy).Contents (Elt F) → (⟨S8192x32x32, .f32⟩ : BufTy).Contents (Elt F)),
    binary main_v6 main_v12 main_v13 (subf : (⟨S8192x32x32, .f32⟩ : BufTy).Contents (Elt F) → (⟨S8192x32x32, .f32⟩ : BufTy).Contents (Elt F) → (⟨S8192x32x32, .f32⟩ : BufTy).Contents (Elt F)),
    nullary main_cst_3 (constant S_ .f32 0x3727C5AC#32),
    unary main_cst_3 main_v14 (broadcastInDim S1x32x1 ![] bcast_S_S1x32x1 : (⟨S_, .f32⟩ : BufTy).Contents (Elt F) → (⟨S1x32x1, .f32⟩ : BufTy).Contents (Elt F)),
    binary main_v11 main_v14 main_v15 (addf : (⟨S1x32x1, .f32⟩ : BufTy).Contents (Elt F) → (⟨S1x32x1, .f32⟩ : BufTy).Contents (Elt F) → (⟨S1x32x1, .f32⟩ : BufTy).Contents (Elt F)),
    unary main_v15 main_v16 (Host.rsqrt : (⟨S1x32x1, .f32⟩ : BufTy).Contents (Elt F) → (⟨S1x32x1, .f32⟩ : BufTy).Contents (Elt F)),
    unary main_v16 main_v17 (broadcastInDim S8192x32x32 ![0, 1, 2] bcast_S1x32x1_S8192x32x32_0_1_2 : (⟨S1x32x1, .f32⟩ : BufTy).Contents (Elt F) → (⟨S8192x32x32, .f32⟩ : BufTy).Contents (Elt F)),
    binary main_v13 main_v17 main_v18 (mulf : (⟨S8192x32x32, .f32⟩ : BufTy).Contents (Elt F) → (⟨S8192x32x32, .f32⟩ : BufTy).Contents (Elt F) → (⟨S8192x32x32, .f32⟩ : BufTy).Contents (Elt F)),
    reshape main_arg2 main_v19 rfl shapeCasts_S32x6x1_S32x6,
    nullary main_cst_4 (constant S_ .f32 0x3F800000#32),
    unary main_cst_4 main_v20 (broadcastInDim S32x6 ![] bcast_S_S32x6 : (⟨S_, .f32⟩ : BufTy).Contents (Elt F) → (⟨S32x6, .f32⟩ : BufTy).Contents (Elt F)),
    binary main_v19 main_v20 main_v21 (Host.divf : (⟨S32x6, .f32⟩ : BufTy).Contents (Elt F) → (⟨S32x6, .f32⟩ : BufTy).Contents (Elt F) → (⟨S32x6, .f32⟩ : BufTy).Contents (Elt F)),
    nullary main_cst_5 (constant S_ .f32 0xFF800000#32),
    binary main_v21 main_cst_5 main_v22 ((fun x v => Host.reduce FloatOps.maximumf x v reducesTo_S32x6_S32_d1 h_S_) : (⟨S32x6, .f32⟩ : BufTy).Contents (Elt F) → (⟨S_, .f32⟩ : BufTy).Contents (Elt F) → (⟨S32, .f32⟩ : BufTy).Contents (Elt F)),
    nullary main_cst_6 (constant S_ .f32 0xFF800000#32),
    unary main_cst_6 main_v23 (broadcastInDim S32 ![] bcast_S_S32 : (⟨S_, .f32⟩ : BufTy).Contents (Elt F) → (⟨S32, .f32⟩ : BufTy).Contents (Elt F)),
    binary main_v23 main_v22 main_v24 (maximumf : (⟨S32, .f32⟩ : BufTy).Contents (Elt F) → (⟨S32, .f32⟩ : BufTy).Contents (Elt F) → (⟨S32, .f32⟩ : BufTy).Contents (Elt F)),
    unary main_v24 main_v25 (broadcastInDim S32x1 ![0] bcast_S32_S32x1_0 : (⟨S32, .f32⟩ : BufTy).Contents (Elt F) → (⟨S32x1, .f32⟩ : BufTy).Contents (Elt F)),
    unary main_v25 main_v26 (broadcastInDim S32x6 ![0, 1] bcast_S32x1_S32x6_0_1 : (⟨S32x1, .f32⟩ : BufTy).Contents (Elt F) → (⟨S32x6, .f32⟩ : BufTy).Contents (Elt F)),
    binary main_v21 main_v26 main_v27 (subf : (⟨S32x6, .f32⟩ : BufTy).Contents (Elt F) → (⟨S32x6, .f32⟩ : BufTy).Contents (Elt F) → (⟨S32x6, .f32⟩ : BufTy).Contents (Elt F)),
    unary main_v27 main_v28 (Host.exp : (⟨S32x6, .f32⟩ : BufTy).Contents (Elt F) → (⟨S32x6, .f32⟩ : BufTy).Contents (Elt F)),
    nullary main_cst_7 (constant S_ .f32 0x00000000#32),
    binary main_v28 main_cst_7 main_v29 ((fun x v => Host.reduceAdd x v reducesTo_S32x6_S32_d1 h_S_) : (⟨S32x6, .f32⟩ : BufTy).Contents (Elt F) → (⟨S_, .f32⟩ : BufTy).Contents (Elt F) → (⟨S32, .f32⟩ : BufTy).Contents (Elt F)),
    unary main_v29 main_v30 (broadcastInDim S32x1 ![0] bcast_S32_S32x1_0 : (⟨S32, .f32⟩ : BufTy).Contents (Elt F) → (⟨S32x1, .f32⟩ : BufTy).Contents (Elt F)),
    unary main_v30 main_v31 (broadcastInDim S32x6 ![0, 1] bcast_S32x1_S32x6_0_1 : (⟨S32x1, .f32⟩ : BufTy).Contents (Elt F) → (⟨S32x6, .f32⟩ : BufTy).Contents (Elt F)),
    binary main_v28 main_v31 main_v32 (Host.divf : (⟨S32x6, .f32⟩ : BufTy).Contents (Elt F) → (⟨S32x6, .f32⟩ : BufTy).Contents (Elt F) → (⟨S32x6, .f32⟩ : BufTy).Contents (Elt F)),
    binary main_v32 main_arg3 main_v33 ((fun l r => Host.dotGeneral dot_S32x6_S6x32_S32x32_1_0_0_1_n_n none l r) : (⟨S32x6, .f32⟩ : BufTy).Contents (Elt F) → (⟨S6x32, .f32⟩ : BufTy).Contents (Elt F) → (⟨S32x32, .f32⟩ : BufTy).Contents (Elt F)),
    unary main_v33 main_v34 (broadcastInDim S1x32x32 ![1, 2] bcast_S32x32_S1x32x32_1_2 : (⟨S32x32, .f32⟩ : BufTy).Contents (Elt F) → (⟨S1x32x32, .f32⟩ : BufTy).Contents (Elt F)),
    unary main_v34 main_v35 (broadcastInDim S8192x32x32 ![0, 1, 2] bcast_S1x32x32_S8192x32x32_0_1_2 : (⟨S1x32x32, .f32⟩ : BufTy).Contents (Elt F) → (⟨S8192x32x32, .f32⟩ : BufTy).Contents (Elt F)),
    binary main_v18 main_v35 main_v36 (mulf : (⟨S8192x32x32, .f32⟩ : BufTy).Contents (Elt F) → (⟨S8192x32x32, .f32⟩ : BufTy).Contents (Elt F) → (⟨S8192x32x32, .f32⟩ : BufTy).Contents (Elt F)) ]

set_option maxRecDepth 8192 in
/-- @main is that straight line: with the two functions' bodies substituted at their calls and sequencing
    re-associated, both sides are the same chain of steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., reshape_bufs_sub ..,
    nullary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    unary_bufs_sub .., unary_bufs_sub .., binary_bufs_sub ..⟩

end Line

/-! ## The composed terms

The operations' results substituted into one another, operands in the printed order, nothing simplified. -/

section Terms

/-- The gathered rows: an index below zero is first moved up by the table's length (compare with zero, add,
    select), the indices get a trailing unit axis, and the gather takes one 32-wide row of the table per
    (sample, field). -/
def embR (a0 : IVec S8192x32 32) (a1 : FVec Ideal S200000x32 .f32) : FVec Ideal S8192x32x32 .f32 :=
  Host.gather gather_S200000x32_S8192x32x1_S8192x32x32_2_0_n_n_0_2_132 a1 (broadcastInDim S8192x32x1 ![0, 1]
    bcast_S8192x32_S8192x32x1_0_1 (select (cmpi .slt a0 (broadcastInDim S8192x32 ![] bcast_S_S8192x32 (constantI S_ 32
    0#32))) (addi a0 (broadcastInDim S8192x32 ![] bcast_S_S8192x32 (constantI S_ 32 200000#32))) a0))

/-- The per-(field, lane) coefficient: the first weight array, its unit axis dropped, divided by one; a softmax
    along its six columns (maximum, subtract, exponential, sum, divide); then the product with the 6 × 32 matrix. -/
def coefR (a2 : FVec Ideal S32x6x1 .f32) (a3 : FVec Ideal S6x32 .f32) : FVec Ideal S32x32 .f32 :=
  Host.dotGeneral (F := Ideal) dot_S32x6_S6x32_S32x32_1_0_0_1_n_n none (Host.divf (F := Ideal) (Host.exp (F := Ideal)
    (subf (F := Ideal) (Host.divf (F := Ideal) (shapeCast S32x6 a2 shapeCasts_S32x6x1_S32x6) (broadcastInDim S32x6 ![]
    bcast_S_S32x6 (constant (F := Ideal) S_ .f32 0x3F800000#32))) (broadcastInDim S32x6 ![0, 1] bcast_S32x1_S32x6_0_1
    (broadcastInDim S32x1 ![0] bcast_S32_S32x1_0 (maximumf (F := Ideal) (broadcastInDim S32 ![] bcast_S_S32 (constant (F
    := Ideal) S_ .f32 0xFF800000#32)) (Host.reduce (FloatOps.maximumf (F := Ideal)) (Host.divf (F := Ideal) (shapeCast
    S32x6 a2 shapeCasts_S32x6x1_S32x6) (broadcastInDim S32x6 ![] bcast_S_S32x6 (constant (F := Ideal) S_ .f32
    0x3F800000#32))) (constant (F := Ideal) S_ .f32 0xFF800000#32) reducesTo_S32x6_S32_d1 h_S_)))))) (broadcastInDim S32x6
    ![0, 1] bcast_S32x1_S32x6_0_1 (broadcastInDim S32x1 ![0] bcast_S32_S32x1_0 (Host.reduceAdd (F := Ideal) (Host.exp (F
    := Ideal) (subf (F := Ideal) (Host.divf (F := Ideal) (shapeCast S32x6 a2 shapeCasts_S32x6x1_S32x6) (broadcastInDim
    S32x6 ![] bcast_S_S32x6 (constant (F := Ideal) S_ .f32 0x3F800000#32))) (broadcastInDim S32x6 ![0, 1]
    bcast_S32x1_S32x6_0_1 (broadcastInDim S32x1 ![0] bcast_S32_S32x1_0 (maximumf (F := Ideal) (broadcastInDim S32 ![]
    bcast_S_S32 (constant (F := Ideal) S_ .f32 0xFF800000#32)) (Host.reduce (FloatOps.maximumf (F := Ideal)) (Host.divf (F
    := Ideal) (shapeCast S32x6 a2 shapeCasts_S32x6x1_S32x6) (broadcastInDim S32x6 ![] bcast_S_S32x6 (constant (F := Ideal)
    S_ .f32 0x3F800000#32))) (constant (F := Ideal) S_ .f32 0xFF800000#32) reducesTo_S32x6_S32_d1 h_S_)))))) (constant (F
    := Ideal) S_ .f32 0x00000000#32) reducesTo_S32x6_S32_d1 h_S_)))) a3

/-- The per-field mean, kept as a [1, 32, 1] array: the sum over samples and lanes from the zero word, divided by
    the splat of the count's word. -/
def meanR (E : FVec Ideal S8192x32x32 .f32) : FVec Ideal S1x32x1 .f32 :=
  Host.divf (F := Ideal) (broadcastInDim S1x32x1 ![1] bcast_S32_S1x32x1_1 (Host.reduceAdd (F := Ideal) E (constant (F :=
    Ideal) S_ .f32 0x00000000#32) reducesTo_S8192x32x32_S32_d0_2 h_S_)) (broadcastInDim S1x32x1 ![] bcast_S_S1x32x1
    (constant (F := Ideal) S_ .f32 0x48800000#32))

/-- The variance function's result: the mean again, the squared deviations summed over samples and lanes and
    divided by the splat of (count − the degrees-of-freedom correction, converted from the integer 0), and that
    quotient kept where the divisor is positive, a NaN word elsewhere. -/
def varR (E : FVec Ideal S8192x32x32 .f32) : FVec Ideal S1x32x1 .f32 :=
  select (broadcastInDim S1x32x1 ![] bcast_S_S1x32x1 (cmpf (F := Ideal) .ogt (subf (F := Ideal) (constant (F := Ideal)
    S_ .f32 0x48800000#32) (sitofp (F := Ideal) .f32 (constantI S_ 32 0#32))) (constant (F := Ideal) S_ .f32
    0x00000000#32))) (Host.divf (F := Ideal) (broadcastInDim S1x32x1 ![1] bcast_S32_S1x32x1_1 (Host.reduceAdd (F := Ideal)
    (mulf (F := Ideal) (subf (F := Ideal) E (broadcastInDim S8192x32x32 ![0, 1, 2] bcast_S1x32x1_S8192x32x32_0_1_2 (meanR
    E))) (subf (F := Ideal) E (broadcastInDim S8192x32x32 ![0, 1, 2] bcast_S1x32x1_S8192x32x32_0_1_2 (meanR E))))
    (constant (F := Ideal) S_ .f32 0x00000000#32) reducesTo_S8192x32x32_S32_d0_2 h_S_)) (broadcastInDim S1x32x1 ![]
    bcast_S_S1x32x1 (subf (F := Ideal) (constant (F := Ideal) S_ .f32 0x48800000#32) (sitofp (F := Ideal) .f32 (constantI
    S_ 32 0#32))))) (broadcastInDim S1x32x1 ![] bcast_S_S1x32x1 (constant (F := Ideal) S_ .f32 0x7FC00000#32))

/-- The result: the centred rows times the reciprocal root of (variance + ε), both broadcast over samples and
    lanes, times the coefficient broadcast over the samples. -/
def refOut (a0 : IVec S8192x32 32) (a1 : FVec Ideal S200000x32 .f32) (a2 : FVec Ideal S32x6x1 .f32)
    (a3 : FVec Ideal S6x32 .f32) : FVec Ideal S8192x32x32 .f32 :=
  mulf (F := Ideal) (mulf (F := Ideal) (subf (F := Ideal) (embR a0 a1) (broadcastInDim S8192x32x32 ![0, 1, 2]
    bcast_S1x32x1_S8192x32x32_0_1_2 (meanR (embR a0 a1)))) (broadcastInDim S8192x32x32 ![0, 1, 2]
    bcast_S1x32x1_S8192x32x32_0_1_2 (Host.rsqrt (F := Ideal) (addf (F := Ideal) (varR (embR a0 a1)) (broadcastInDim
    S1x32x1 ![] bcast_S_S1x32x1 (constant (F := Ideal) S_ .f32 0x3727C5AC#32)))))) (broadcastInDim S8192x32x32 ![0, 1, 2]
    bcast_S1x32x32_S8192x32x32_0_1_2 (broadcastInDim S1x32x32 ![1, 2] bcast_S32x32_S1x32x32_1_2 (coefR a2 a3)))

end Terms

/-! ## The fold read at the result and at the arguments -/

section Fold

attribute [local irreducible] Host.reduce Host.reduceAdd Host.gather broadcastInDim shapeCast in
set_option maxRecDepth 8192 in
set_option maxHeartbeats 1600000 in
/-- After the line the result buffer holds `refOut` of the arguments' contents: each operation's result read at
    its own buffer is its function's value, at any other buffer what was there; the typed references' casts
    are the identity at literal references. The reductions, the gather, the contraction and the layout
    operations stay folded: the equation never looks inside them. -/
theorem out_eq (V : Valuation τ sig (Elt Ideal)) :
    after (ops (F := Ideal)) V (main_v36 : DevRef τ sig)
      = refOut (V (main_arg0 : DevRef τ sig)) (V (main_arg1 : DevRef τ sig)) (V (main_arg2 : DevRef τ sig))
          (V (main_arg3 : DevRef τ sig)) := by
  after_results_simp
  rfl

set_option maxRecDepth 8192 in
theorem arg0_eq (V : Valuation τ sig (Elt Ideal)) :
    after (ops (F := Ideal)) V (main_arg0 : DevRef τ sig) = V (main_arg0 : DevRef τ sig) := by
  after_results_simp

set_option maxRecDepth 8192 in
theorem arg1_eq (V : Valuation τ sig (Elt Ideal)) :
    after (ops (F := Ideal)) V (main_arg1 : DevRef τ sig) = V (main_arg1 : DevRef τ sig) := by
  after_results_simp

set_option maxRecDepth 8192 in
theorem arg2_eq (V : Valuation τ sig (Elt Ideal)) :
    after (ops (F := Ideal)) V (main_arg2 : DevRef τ sig) = V (main_arg2 : DevRef τ sig) := by
  after_results_simp

set_option maxRecDepth 8192 in
theorem arg3_eq (V : Valuation τ sig (Elt Ideal)) :
    after (ops (F := Ideal)) V (main_arg3 : DevRef τ sig) = V (main_arg3 : DevRef τ sig) := by
  after_results_simp

end Fold

/-! ## The run -/

/-- On the one device, from any memory with zero counters: every weakly fair execution of @main terminates with
    the result buffer at `refOut` of the arguments' launch contents and the four arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v36)
          = refOut (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨(h c main_v36).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.Hand

end
-- ==== Proof.LibReadBack.lean ====
/-
  Reading a buffer back through the stores made into it. A kernel body that first fills a whole buffer (zeroing an
  accumulator, say), then stores the whole buffer again, and only then loads it, reads the LAST store's payload: the
  earlier stores do not matter. Stated for any list of earlier stores.
-/
import Idealize.ShloMosaic.Lib.Pipeline.Value

noncomputable section

namespace Cert.LibReadBack

open Idealize.ShloMosaic

/-- A load of a whole buffer (the unit-stride rectangle at the origin, of the buffer's own size) after a store of the
    whole buffer reads that store's payload `w`, whatever the list `L` of stores before it was. (The one-store case is the
    library's `View.readCov_unit_zero`; this is the same fact with earlier stores underneath, as when an accumulator is
    zeroed and then overwritten with its first partial result within one grid point.) -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibReadBack

end
-- ==== Proof.StatsPieces.lean ====
/-
  What each case of the statistics kernel leaves in its four buffers, as the body's own arithmetic. With `S' = S + (the
  tile's sum)` and `Q' = Q + (the tile's sum of squares)` the new totals (from zero at the first tile, from the totals
  entered with at a later one), the mean output is `S' / N` and the variance output `Q' / N − (S' / N)²`.
-/
import proofs.«127497_j70282844831820_2_alg».proof.Proof.StatsFrame
import Idealize.ShloMosaic.Lib.Pipeline.Value
import proofs.«127497_j70282844831820_2_alg».proof.Proof.LibReadBack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibReadBack

/-- The body's accesses all start at the origin of their buffer. -/
theorem hz3 : (![0, 0, 0] : Fin 3 → Nat) = fun _ => 0 := funext fun a => by fin_cases a <;> rfl

/-! ## A later tile -/

theorem sout0_B_0_eq (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) :
    sout0_B_0 c i arg1 harg1 arg2 harg2 arg3 harg3 arg4 harg4 arg5 harg5 hc0 x0 xs0 xs1 = k0_pay5 x0 xs0 := by
  unfold sout0_B_0
  rw [View.read_writes_eq_canon _ _ _ (scover0_B_0 c i arg1 harg1 arg2 harg2 arg3 harg3 arg4 harg4 arg5 harg5 hc0 x0 xs0 xs1)]
  unfold kernelRun0_B
  dsimp only
  sl_unfold_words
  simp only [View.canon_unit_zero (S := S1x32x1) hz3, View.canon_cons_unit_zero (S := S1x32x1) hz3, View.readCov_unit_zero (S := S1x32x1) _ hz3, readCov_cons_unit_zero (S := S1x32x1) _ hz3,
    View.readAt_eq_ld, harg1.read_unread, harg4.read_unread, harg5.read_unread,
    View.ld_unit_zero (S := S256x32x32) hz3, View.ld_unit_zero (S := S1x32x1) hz3]

theorem sout0_B_1_eq (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) :
    sout0_B_1 c i arg1 harg1 arg2 harg2 arg3 harg3 arg4 harg4 arg5 harg5 hc0 x0 xs0 xs1 = k0_pay6 x0 xs1 := by
  unfold sout0_B_1
  rw [View.read_writes_eq_canon _ _ _ (scover0_B_1 c i arg1 harg1 arg2 harg2 arg3 harg3 arg4 harg4 arg5 harg5 hc0 x0 xs0 xs1)]
  unfold kernelRun0_B
  dsimp only
  sl_unfold_words
  simp only [View.canon_unit_zero (S := S1x32x1) hz3, View.canon_cons_unit_zero (S := S1x32x1) hz3, View.readCov_unit_zero (S := S1x32x1) _ hz3, readCov_cons_unit_zero (S := S1x32x1) _ hz3,
    View.readAt_eq_ld, harg1.read_unread, harg4.read_unread, harg5.read_unread,
    View.ld_unit_zero (S := S256x32x32) hz3, View.ld_unit_zero (S := S1x32x1) hz3]

theorem out0_B_1_eq (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) :
    out0_B_1 c i arg1 harg1 arg2 harg2 arg3 harg3 arg4 harg4 arg5 harg5 hc0 x0 xs0 xs1 = k0_pay7 (k0_pay5 x0 xs0) := by
  unfold out0_B_1
  rw [View.read_writes_eq_canon _ _ _ (cover0_B_1 c i arg1 harg1 arg2 harg2 arg3 harg3 arg4 harg4 arg5 harg5 hc0 x0 xs0 xs1)]
  unfold kernelRun0_B
  dsimp only
  sl_unfold_words
  simp only [View.canon_unit_zero (S := S1x32x1) hz3, View.canon_cons_unit_zero (S := S1x32x1) hz3, View.readCov_unit_zero (S := S1x32x1) _ hz3, readCov_cons_unit_zero (S := S1x32x1) _ hz3,
    View.readAt_eq_ld, harg1.read_unread, harg4.read_unread, harg5.read_unread,
    View.ld_unit_zero (S := S256x32x32) hz3, View.ld_unit_zero (S := S1x32x1) hz3]

theorem out0_B_2_eq (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : ¬cond0_0 i)
    (x0 : Vec F S256x32x32 .f32) (xs0 : Vec F S1x32x1 .f32) (xs1 : Vec F S1x32x1 .f32) :
    out0_B_2 c i arg1 harg1 arg2 harg2 arg3 harg3 arg4 harg4 arg5 harg5 hc0 x0 xs0 xs1 = k0_pay1 (k0_pay7 (k0_pay5 x0 xs0)) (k0_pay6 x0 xs1) := by
  unfold out0_B_2
  rw [View.read_writes_eq_canon _ _ _ (cover0_B_2 c i arg1 harg1 arg2 harg2 arg3 harg3 arg4 harg4 arg5 harg5 hc0 x0 xs0 xs1)]
  unfold kernelRun0_B
  dsimp only
  sl_unfold_words
  simp only [View.canon_unit_zero (S := S1x32x1) hz3, View.canon_cons_unit_zero (S := S1x32x1) hz3, View.readCov_unit_zero (S := S1x32x1) _ hz3, readCov_cons_unit_zero (S := S1x32x1) _ hz3,
    View.readAt_eq_ld, harg1.read_unread, harg4.read_unread, harg5.read_unread,
    View.ld_unit_zero (S := S256x32x32) hz3, View.ld_unit_zero (S := S1x32x1) hz3]

/-! ## The first tile: the totals start from the zero payloads -/

theorem sout0_A_0_eq (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) :
    sout0_A_0 c i arg1 harg1 arg2 harg2 arg3 harg3 arg4 harg4 arg5 harg5 hc0 x0 = k0_pay5 x0 k0_pay2 := by
  unfold sout0_A_0
  rw [View.read_writes_eq_canon _ _ _ (scover0_A_0 c i arg1 harg1 arg2 harg2 arg3 harg3 arg4 harg4 arg5 harg5 hc0 x0)]
  unfold kernelRun0_A
  dsimp only
  sl_unfold_words
  simp only [View.canon_unit_zero (S := S1x32x1) hz3, View.canon_cons_unit_zero (S := S1x32x1) hz3, View.readCov_unit_zero (S := S1x32x1) _ hz3, readCov_cons_unit_zero (S := S1x32x1) _ hz3,
    View.readAt_eq_ld, harg1.read_unread, harg4.read_unread, harg5.read_unread,
    View.ld_unit_zero (S := S256x32x32) hz3, View.ld_unit_zero (S := S1x32x1) hz3]

theorem sout0_A_1_eq (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) :
    sout0_A_1 c i arg1 harg1 arg2 harg2 arg3 harg3 arg4 harg4 arg5 harg5 hc0 x0 = k0_pay6 x0 k0_pay3 := by
  unfold sout0_A_1
  rw [View.read_writes_eq_canon _ _ _ (scover0_A_1 c i arg1 harg1 arg2 harg2 arg3 harg3 arg4 harg4 arg5 harg5 hc0 x0)]
  unfold kernelRun0_A
  dsimp only
  sl_unfold_words
  simp only [View.canon_unit_zero (S := S1x32x1) hz3, View.canon_cons_unit_zero (S := S1x32x1) hz3, View.readCov_unit_zero (S := S1x32x1) _ hz3, readCov_cons_unit_zero (S := S1x32x1) _ hz3,
    View.readAt_eq_ld, harg1.read_unread, harg4.read_unread, harg5.read_unread,
    View.ld_unit_zero (S := S256x32x32) hz3, View.ld_unit_zero (S := S1x32x1) hz3]

theorem out0_A_1_eq (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) :
    out0_A_1 c i arg1 harg1 arg2 harg2 arg3 harg3 arg4 harg4 arg5 harg5 hc0 x0 = k0_pay7 (k0_pay5 x0 k0_pay2) := by
  unfold out0_A_1
  rw [View.read_writes_eq_canon _ _ _ (cover0_A_1 c i arg1 harg1 arg2 harg2 arg3 harg3 arg4 harg4 arg5 harg5 hc0 x0)]
  unfold kernelRun0_A
  dsimp only
  sl_unfold_words
  simp only [View.canon_unit_zero (S := S1x32x1) hz3, View.canon_cons_unit_zero (S := S1x32x1) hz3, View.readCov_unit_zero (S := S1x32x1) _ hz3, readCov_cons_unit_zero (S := S1x32x1) _ hz3,
    View.readAt_eq_ld, harg1.read_unread, harg4.read_unread, harg5.read_unread,
    View.ld_unit_zero (S := S256x32x32) hz3, View.ld_unit_zero (S := S1x32x1) hz3]

theorem out0_A_2_eq (c : Dev nD) (i : grid0.Coords) (arg1 : Memref sig .tc .vmem S256x32x32 .f32) (harg1 : arg1.IsWhole) (arg2 : Memref sig .tc .vmem S1x32x1 .f32) (harg2 : arg2.IsWhole) (arg3 : Memref sig .tc .vmem S1x32x1 .f32) (harg3 : arg3.IsWhole) (arg4 : Memref sig .tc .vmem S1x32x1 .f32) (harg4 : arg4.IsWhole) (arg5 : Memref sig .tc .vmem S1x32x1 .f32) (harg5 : arg5.IsWhole) (hc0 : cond0_0 i)
    (x0 : Vec F S256x32x32 .f32) :
    out0_A_2 c i arg1 harg1 arg2 harg2 arg3 harg3 arg4 harg4 arg5 harg5 hc0 x0 = k0_pay1 (k0_pay7 (k0_pay5 x0 k0_pay2)) (k0_pay6 x0 k0_pay3) := by
  unfold out0_A_2
  rw [View.read_writes_eq_canon _ _ _ (cover0_A_2 c i arg1 harg1 arg2 harg2 arg3 harg3 arg4 harg4 arg5 harg5 hc0 x0)]
  unfold kernelRun0_A
  dsimp only
  sl_unfold_words
  simp only [View.canon_unit_zero (S := S1x32x1) hz3, View.canon_cons_unit_zero (S := S1x32x1) hz3, View.readCov_unit_zero (S := S1x32x1) _ hz3, readCov_cons_unit_zero (S := S1x32x1) _ hz3,
    View.readAt_eq_ld, harg1.read_unread, harg4.read_unread, harg5.read_unread,
    View.ld_unit_zero (S := S256x32x32) hz3, View.ld_unit_zero (S := S1x32x1) hz3]

end Cert.KernelIdeal.Hand

end
-- ==== Proof.Spec.lean ====
/-
  What both programs compute, as extended reals, from the gathered embeddings `E[b, f, d]` (b < 8192 samples,
  f < 32 fields, d < 32 lanes) and the per-(field, lane) scale `C[f, d]`: each field is normalised by its own mean and
  (biased) variance taken over all samples and lanes, `N = 8192 · 32 = 262144` entries, and the result scaled:
    out[b, f, d] = ((E[b, f, d] − mean f) · rsqrt (var f + ε)) · C[f, d].
  The two programs differ only in how the variance is written: the mean of the squared deviations on one side, the
  mean of the squares less the squared mean on the other.
-/
import Idealize.ShloMosaic.PureOps.Ideal
import Idealize.ShloMosaic.Lib.ValueIdx

noncomputable section

namespace Cert.Spec

open Idealize.ShloMosaic Idealize.ShloMosaic.ValueIdx

/-- The gathered embeddings' index type and the scale's. -/
abbrev EIdx : Type := (⟨3, ![8192, 32, 32]⟩ : Shape).Idx
abbrev CIdx : Type := (⟨2, ![32, 32]⟩ : Shape).Idx

/-- The count of entries per field, as both programs spell it: the f32 word of 262144.0. -/
abbrev Nw : EReal := Ideal.ofBits .f32 0x48800000#32

/-- That word denotes the real number 262144 = 2^18. -/
theorem Nw_eq : Nw = ((262144 : ℝ) : EReal) := by
  simp [Nw, Ideal.ofBits, Ideal.ieee, -EReal.coe_mul]; norm_num

/-- One output element: the centred entry, times the reciprocal root of variance plus ε, times its scale. -/
def normAt (e μ v c : EReal) : EReal :=
  ((e - μ) * Ideal.rsqrt (v + Ideal.ofBits .f32 0x3727C5AC#32)) * c

/-- Field `f`'s mean: the sum over all samples and lanes, divided by their count. -/
def mean (E : EIdx → EReal) (f : Fin 32) : EReal :=
  Ideal.div (∑ b : Fin 8192, ∑ d : Fin 32, E (ix3 b f d)) Nw

/-- Field `f`'s variance as the mean of the squared deviations from the mean. -/
def varDev (E : EIdx → EReal) (f : Fin 32) : EReal :=
  Ideal.div (∑ b : Fin 8192, ∑ d : Fin 32, (E (ix3 b f d) - mean E f) * (E (ix3 b f d) - mean E f)) Nw

/-- Field `f`'s variance as the mean of the squares less the square of the mean. -/
def varSq (E : EIdx → EReal) (f : Fin 32) : EReal :=
  Ideal.div (∑ b : Fin 8192, ∑ d : Fin 32, E (ix3 b f d) * E (ix3 b f d)) Nw - mean E f * mean E f

end Cert.Spec

end
-- ==== Proof.StatsPay.lean ====
/-
  The statistics kernel's stored values, read at the one index (0, f, 0) of field f in a [1, 32, 1] vector.  A block is
  256 samples by 32 fields by 32 lanes.  The block's contribution to field f's sum is first the sum over the lanes
  (the last axis), then over the block's samples (the first axis); the casts between [256, 32] and [256, 32, 1] and
  between [32, 1] and [1, 32, 1] only add a unit axis and keep the row-major position.  The totals add that
  contribution (of the entries, and of their squares) to what they held; the mean is the total over the count
  N = 262144, the variance the total of squares over N less the squared mean; the zeroing stores store 0.
-/
import proofs.«127497_j70282844831820_2_alg».proof.Proof.Gen.KernelIdeal.Skeleton
import proofs.«127497_j70282844831820_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen Idealize.ShloMosaic Idealize.ShloMosaic.ValueIdx

/-- A sum over the lane axis of a [256, 32, 32] vector, at (r, f): the sum over the 32 lanes. -/
theorem stats_sumLanes (src : FVec Ideal S256x32x32 .f32) (h : S256x32x32.Reduces [2] S256x32) (hφ : FKind.Formats .f32)
    (hacc : (0x00000000#32 : BitVec 32) = FKind.add.neutral .f32 hφ) (r : Fin 256) (f : Fin 32) :
    multiReduction .add [2] S256x32 src 0x00000000#32 h hφ hacc (ix2 r f) = ∑ d : Fin 32, src (ix3 r f d) := by
  refine (Ideal.multiReduction_add_single src 0x00000000#32 h hφ hacc (ix2 r f)).trans ?_
  refine Finset.sum_congr rfl fun d _ => congrArg src ?_
  funext a
  match a with
  | ⟨0, _⟩ => rfl
  | ⟨1, _⟩ => rfl
  | ⟨2, _⟩ => rfl

/-- A sum over the sample axis of a [256, 32, 1] vector, at (f, 0): the sum over the 256 samples. -/
theorem stats_sumRows (src : FVec Ideal S256x32x1 .f32) (h : S256x32x1.Reduces [0] S32x1) (hφ : FKind.Formats .f32)
    (hacc : (0x00000000#32 : BitVec 32) = FKind.add.neutral .f32 hφ) (f : Fin 32) :
    multiReduction .add [0] S32x1 src 0x00000000#32 h hφ hacc (ix2 f 0) = ∑ r : Fin 256, src (ix3 r f 0) := by
  refine (Ideal.multiReduction_add_single src 0x00000000#32 h hφ hacc (ix2 f 0)).trans ?_
  refine Finset.sum_congr rfl fun r _ => congrArg src ?_
  funext a
  match a with
  | ⟨0, _⟩ => rfl
  | ⟨1, _⟩ => rfl
  | ⟨2, _⟩ => rfl

/-- The cast [256, 32] → [256, 32, 1] at (r, f, 0) reads (r, f). -/
theorem stats_cast_addLast {α : Type} (v : S256x32.Idx → α) (h : S256x32.ShapeCasts S256x32x1) (r : Fin 256) (f : Fin 32) :
    shapeCast S256x32x1 v h (ix3 r f 0) = v (ix2 r f) := by
  refine shapeCast_apply v h (ix3 r f 0) (ix2 r f) ?_
  rw [Shape.rowMajor_val_two, Shape.rowMajor_val_three]
  show r.val * 32 + f.val = (r.val * 32 + f.val) * 1 + 0
  omega

/-- The cast [32, 1] → [1, 32, 1] at (0, f, 0) reads (f, 0). -/
theorem stats_cast_addFirst {α : Type} (v : S32x1.Idx → α) (h : S32x1.ShapeCasts S1x32x1) (f : Fin 32) :
    shapeCast S1x32x1 v h (ix3 0 f 0) = v (ix2 f 0) := by
  refine shapeCast_apply v h (ix3 0 f 0) (ix2 f 0) ?_
  rw [Shape.rowMajor_val_two, Shape.rowMajor_val_three]
  show f.val * 1 + 0 = (0 * 32 + f.val) * 1 + 0
  omega

variable (x0 : Vec Ideal S256x32x32 .f32) (s q μ : Vec Ideal S1x32x1 .f32) (f : Fin 32)

/-- The zeroing store of the running sum stores 0. -/
theorem pay2_apply : k0_pay2 (F := Ideal) (ix3 0 f 0) = 0 := by
  unfold k0_pay2
  rw [shapeCast_self]
  exact Ideal.ofBits_zero_f32

/-- The zeroing store of the running sum of squares stores 0. -/
theorem pay3_apply : k0_pay3 (F := Ideal) (ix3 0 f 0) = 0 := by
  unfold k0_pay3
  rw [shapeCast_self]
  exact Ideal.ofBits_zero_f32

/-- The running sum after a block: what it held plus the block's entries of field f. -/
theorem pay5_apply : k0_pay5 x0 s (ix3 0 f 0) = s (ix3 0 f 0) + ∑ r : Fin 256, ∑ d : Fin 32, x0 (ix3 r f d) := by
  unfold k0_pay5 k0_pay4
  dsimp only
  simp only [shapeCast_self]
  refine congrArg (s (ix3 0 f 0) + ·) ?_
  refine (stats_cast_addFirst _ _ f).trans ?_
  refine (stats_sumRows _ _ _ _ f).trans ?_
  refine Finset.sum_congr rfl fun r _ => ?_
  refine (stats_cast_addLast _ _ r f).trans ?_
  exact stats_sumLanes x0 _ _ _ r f

/-- The running sum of squares after a block: what it held plus the squares of the block's entries of field f. -/
theorem pay6_apply :
    k0_pay6 x0 q (ix3 0 f 0) = q (ix3 0 f 0) + ∑ r : Fin 256, ∑ d : Fin 32, x0 (ix3 r f d) * x0 (ix3 r f d) := by
  unfold k0_pay6 k0_pay4
  dsimp only
  simp only [shapeCast_self]
  refine congrArg (q (ix3 0 f 0) + ·) ?_
  refine (stats_cast_addFirst _ _ f).trans ?_
  refine (stats_sumRows _ _ _ _ f).trans ?_
  refine Finset.sum_congr rfl fun r _ => ?_
  refine (stats_cast_addLast _ _ r f).trans ?_
  exact stats_sumLanes (mulf x0 x0) _ _ _ r f

/-- The mean: the total over the count. -/
theorem pay7_apply : k0_pay7 s (ix3 0 f 0) = Ideal.div (s (ix3 0 f 0)) Cert.Spec.Nw := by
  unfold k0_pay7
  rfl

/-- The variance: the total of squares over the count, less the squared mean. -/
theorem pay1_apply :
    k0_pay1 μ q (ix3 0 f 0) = Ideal.div (q (ix3 0 f 0)) Cert.Spec.Nw - μ (ix3 0 f 0) * μ (ix3 0 f 0) := by
  unfold k0_pay1
  rfl

end Cert.KernelIdeal.HandValue

end
-- ==== Proof.SpecLaws.lean ====
/-
  Laws of the specification's mean and variance that hold when every entry is a real number.  With
  S = ∑ x, Q = ∑ x², over the N = 8192 · 32 = 262144 entries of one field, and μ = S / N:
    ∑ (x − μ)² = Q − 2 μ S + N μ² = Q − S² / N,   so   (∑ (x − μ)²) / N = Q / N − μ²,
  which is the equality of the two ways the variance is written.  Also: the sum over 8192 samples taken as
  32 consecutive tiles of 256.
-/
import proofs.«127497_j70282844831820_2_alg».proof.Proof.Spec
import Mathlib.Algebra.BigOperators.Fin
import Mathlib.Tactic

noncomputable section

namespace Cert.Spec

open Idealize.ShloMosaic Idealize.ShloMosaic.ValueIdx

/-- The embedding of the reals in the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The mean of real entries, as a real: the sum times 1/N. -/
theorem mean_coe (E : EIdx → EReal) (x : EIdx → ℝ) (hx : ∀ i, E i = (x i : EReal)) (f : Fin 32) :
    mean E f = (((∑ b : Fin 8192, ∑ d : Fin 32, x (ix3 b f d)) * (1 / 262144 : ℝ) : ℝ) : EReal) := by
  unfold mean
  rw [Nw_eq, Ideal.div_coe (by norm_num)]
  simp only [hx, ← coe_sum, ← EReal.coe_mul]

/-- The mean of real entries is real. -/
theorem mean_real (E : EIdx → EReal) (hE : ∀ i, ∃ x : ℝ, E i = (x : EReal)) (f : Fin 32) :
    ∃ x : ℝ, mean E f = (x : EReal) := by
  choose x hx using hE
  exact ⟨_, mean_coe E x hx f⟩

/-- In the reals: the mean of the squares less the squared mean is the mean of the squared deviations. -/
theorem var_real (x : Fin 8192 → Fin 32 → ℝ) :
    (∑ b : Fin 8192, ∑ d : Fin 32, x b d * x b d) * (1 / 262144 : ℝ)
        - (∑ b : Fin 8192, ∑ d : Fin 32, x b d) * (1 / 262144 : ℝ) * ((∑ b : Fin 8192, ∑ d : Fin 32, x b d) * (1 / 262144 : ℝ))
      = (∑ b : Fin 8192, ∑ d : Fin 32,
          (x b d - (∑ b : Fin 8192, ∑ d : Fin 32, x b d) * (1 / 262144 : ℝ))
            * (x b d - (∑ b : Fin 8192, ∑ d : Fin 32, x b d) * (1 / 262144 : ℝ))) * (1 / 262144 : ℝ) := by
  generalize hμ : (∑ b : Fin 8192, ∑ d : Fin 32, x b d) * (1 / 262144 : ℝ) = μ
  have hsq : ∀ b d, (x b d - μ) * (x b d - μ) = x b d * x b d - 2 * μ * x b d + μ * μ := fun b d => by ring
  simp only [hsq, Finset.sum_add_distrib, Finset.sum_sub_distrib, ← Finset.mul_sum, Finset.sum_const,
    Finset.card_univ, Fintype.card_fin, nsmul_eq_mul]
  rw [← hμ]
  push_cast
  ring

/-- The two ways of writing the variance agree when every entry is real. -/
theorem var_eq (E : EIdx → EReal) (hE : ∀ i, ∃ x : ℝ, E i = (x : EReal)) (f : Fin 32) :
    varSq E f = varDev E f := by
  choose x hx using hE
  unfold varSq varDev
  rw [mean_coe E x hx f, Nw_eq, Ideal.div_coe (by norm_num), Ideal.div_coe (by norm_num)]
  simp only [hx, ← EReal.coe_mul, ← EReal.coe_sub, ← coe_sum]
  exact congrArg _ (var_real fun b d => x (ix3 b f d))

/-- A sum over the 8192 samples, taken as 32 consecutive tiles of 256: sample 256 t + r is row r of tile t. -/
theorem sum_tiles {α : Type*} [AddCommMonoid α] (g : Fin 8192 → α) :
    ∑ t : Fin 32, ∑ r : Fin 256, g ⟨256 * t.val + r.val, by omega⟩ = ∑ b : Fin 8192, g b := by
  rw [← Fintype.sum_prod_type']
  refine Fintype.sum_equiv (finProdFinEquiv (m := 32) (n := 256)) _ _ (fun p => ?_)
  refine congrArg g (Fin.ext ?_)
  show 256 * p.1.val + p.2.val = p.2.val + 256 * p.1.val
  omega

/-- The same with the tiles counted by a natural number running below 32. -/
theorem sum_tiles_range {α : Type*} [AddCommMonoid α] (g : Fin 8192 → α) :
    ∑ t ∈ Finset.range 32, (if h : t < 32 then ∑ r : Fin 256, g ⟨256 * t + r.val, by omega⟩ else 0)
      = ∑ b : Fin 8192, g b := by
  rw [← sum_tiles g, ← Fin.sum_univ_eq_sum_range (fun t => if h : t < 32 then ∑ r : Fin 256, g ⟨256 * t + r.val, by omega⟩ else 0) 32]
  exact Finset.sum_congr rfl fun t _ => by rw [dif_pos t.isLt]

/-- The running form: the first n tiles sum the samples below 256 n. -/
theorem sum_tiles_upto {α : Type*} [AddCommMonoid α] (g : Fin 8192 → α) (n : ℕ) (hn : n ≤ 32) :
    ∑ t ∈ Finset.range n, (if h : t < 32 then ∑ r : Fin 256, g ⟨256 * t + r.val, by omega⟩ else 0)
      = ∑ b : Fin 8192, if b.val < 256 * n then g b else 0 := by
  rw [← sum_tiles (fun b => if b.val < 256 * n then g b else 0)]
  have hin : ∀ (t : Fin 32), (∑ r : Fin 256, (if 256 * t.val + r.val < 256 * n then g ⟨256 * t.val + r.val, by omega⟩ else 0))
      = if t.val < n then ∑ r : Fin 256, g ⟨256 * t.val + r.val, by omega⟩ else 0 := by
    intro t
    by_cases ht : t.val < n
    · rw [if_pos ht]; exact Finset.sum_congr rfl fun r _ => if_pos (by omega)
    · rw [if_neg ht]; exact Finset.sum_eq_zero fun r _ => if_neg (by omega)
  simp only [hin]
  obtain ⟨f, hf⟩ : ∃ f : ℕ → α, ∀ t, f t = if t < n then (if h : t < 32 then ∑ r : Fin 256, g ⟨256 * t + r.val, by omega⟩ else 0) else 0 :=
    ⟨_, fun _ => rfl⟩
  symm
  calc (∑ x : Fin 32, if x.val < n then ∑ r : Fin 256, g ⟨256 * x.val + r.val, by omega⟩ else 0)
      = ∑ x : Fin 32, f x.val := Finset.sum_congr rfl fun x _ => by rw [hf, dif_pos x.isLt]
    _ = ∑ t ∈ Finset.range 32, f t := Fin.sum_univ_eq_sum_range f 32
    _ = ∑ t ∈ Finset.range n, f t :=
        (Finset.sum_subset (Finset.range_mono hn) fun t _ ht => by
          rw [hf, if_neg (by simpa using ht)]).symm
    _ = _ := Finset.sum_congr rfl fun t ht => by rw [hf, if_pos (Finset.mem_range.1 ht)]

end Cert.Spec

end
-- ==== Proof.StatsTotals.lean ====
/-
  The statistics kernel's outputs as sums over the whole array. Tile `t` of the gathered embeddings is rows
  `256·t … 256·t + 255`; after point `n` the running sum for field `f` is the sum of the first `n + 1` tiles' entries of
  that field (over rows and lanes), the running sum of squares likewise; the mean output is the running sum over `N`,
  the variance output the running sum of squares over `N` less the squared mean. After the last point the tiles are all
  8192 rows, so the two outputs are the field's mean and its mean-of-squares-less-squared-mean variance.
-/
import proofs.«127497_j70282844831820_2_alg».proof.Proof.StatsPieces
import proofs.«127497_j70282844831820_2_alg».proof.Proof.StatsPay
import proofs.«127497_j70282844831820_2_alg».proof.Proof.SpecLaws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## The input block read at an index -/

/-- The input window's block index at point `t` is `(t, 0, 0)`: decided over the grid. -/
theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

theorem N0_eq : cfg0.N = 32 := N_0

/-- Element `(r, f, d)` of tile `t` is the array's entry at row `256·t + r`. -/
theorem iblk0_apply (c : Dev nD) (t : Fin cfg0.N) (r : Fin 256) (f d : Fin 32) :
    (iblk0 V c 0 t : Vec Ideal S256x32x32 .f32) (ix3 r f d)
      = (V c main_v6 : Cert.Spec.EIdx → EReal) (ix3 (⟨256 * t.val + r.val, by have := t.isLt; have h32 : cfg0.N = 32 := N0_eq; omega⟩ : Fin 8192) f d) := by
  unfold iblk0
  show V c main_v6 (((cfg0.win 0).blk t).view.emb (ix3 r f d)) = _
  refine congrArg (V c main_v6) ?_
  obtain ⟨e0, e1, e2⟩ := idx_facts0 t
  funext a; apply Fin.ext
  match a with
  | ⟨0, _⟩ => show win0_0.index t (0 : Fin 3) * 256 + 1 * r.val = 256 * t.val + r.val; omega
  | ⟨1, _⟩ => show win0_0.index t (1 : Fin 3) * 32 + 1 * f.val = f.val; omega
  | ⟨2, _⟩ => show win0_0.index t (2 : Fin 3) * 32 + 1 * d.val = d.val; omega

/-! ## Each point's buffers through the body's arithmetic -/

theorem tot0_zero (c : Dev nD) (hn : 0 < cfg0.N) :
    (outsAt0 V c 0 hn).2.2.1 = k0_pay5 (iblk0 V c 0 ⟨0, hn⟩) (k0_pay2 (F := Ideal)) :=
  sout0_A_0_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩)
theorem tot1_zero (c : Dev nD) (hn : 0 < cfg0.N) :
    (outsAt0 V c 0 hn).2.2.2 = k0_pay6 (iblk0 V c 0 ⟨0, hn⟩) (k0_pay3 (F := Ideal)) :=
  sout0_A_1_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩)
theorem mean_zero (c : Dev nD) (hn : 0 < cfg0.N) :
    (outsAt0 V c 0 hn).1 = k0_pay7 (k0_pay5 (iblk0 V c 0 ⟨0, hn⟩) (k0_pay2 (F := Ideal))) :=
  out0_A_1_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩)
theorem var_zero (c : Dev nD) (hn : 0 < cfg0.N) :
    (outsAt0 V c 0 hn).2.1 = k0_pay1 (k0_pay7 (k0_pay5 (iblk0 V c 0 ⟨0, hn⟩) (k0_pay2 (F := Ideal)))) (k0_pay6 (iblk0 V c 0 ⟨0, hn⟩) (k0_pay3 (F := Ideal))) :=
  out0_A_2_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (iblk0 V c 0 ⟨0, hn⟩)

theorem tot0_succ (c : Dev nD) (n : ℕ) (hn : n + 1 < cfg0.N) :
    (outsAt0 V c (n + 1) hn).2.2.1 = k0_pay5 (iblk0 V c 0 ⟨n + 1, hn⟩) (outsAt0 V c n (Nat.lt_of_succ_lt hn)).2.2.1 :=
  sout0_B_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 V c n (Nat.lt_of_succ_lt hn)).2.2.1 (outsAt0 V c n (Nat.lt_of_succ_lt hn)).2.2.2
theorem tot1_succ (c : Dev nD) (n : ℕ) (hn : n + 1 < cfg0.N) :
    (outsAt0 V c (n + 1) hn).2.2.2 = k0_pay6 (iblk0 V c 0 ⟨n + 1, hn⟩) (outsAt0 V c n (Nat.lt_of_succ_lt hn)).2.2.2 :=
  sout0_B_1_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 V c n (Nat.lt_of_succ_lt hn)).2.2.1 (outsAt0 V c n (Nat.lt_of_succ_lt hn)).2.2.2
theorem mean_succ (c : Dev nD) (n : ℕ) (hn : n + 1 < cfg0.N) :
    (outsAt0 V c (n + 1) hn).1 = k0_pay7 (k0_pay5 (iblk0 V c 0 ⟨n + 1, hn⟩) (outsAt0 V c n (Nat.lt_of_succ_lt hn)).2.2.1) :=
  out0_B_1_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 V c n (Nat.lt_of_succ_lt hn)).2.2.1 (outsAt0 V c n (Nat.lt_of_succ_lt hn)).2.2.2
theorem var_succ (c : Dev nD) (n : ℕ) (hn : n + 1 < cfg0.N) :
    (outsAt0 V c (n + 1) hn).2.1 = k0_pay1 (k0_pay7 (k0_pay5 (iblk0 V c 0 ⟨n + 1, hn⟩) (outsAt0 V c n (Nat.lt_of_succ_lt hn)).2.2.1)) (k0_pay6 (iblk0 V c 0 ⟨n + 1, hn⟩) (outsAt0 V c n (Nat.lt_of_succ_lt hn)).2.2.2) :=
  out0_B_2_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (outsAt0 V c n (Nat.lt_of_succ_lt hn)).2.2.1 (outsAt0 V c n (Nat.lt_of_succ_lt hn)).2.2.2

/-- At every point the mean output is the body's quotient of the new running sum, -/
theorem mean_of_tot (c : Dev nD) : ∀ (n : ℕ) (hn : n < cfg0.N), (outsAt0 V c n hn).1 = k0_pay7 (outsAt0 V c n hn).2.2.1
  | 0, hn => (mean_zero V c hn).trans (congrArg k0_pay7 (tot0_zero V c hn).symm)
  | n + 1, hn => (mean_succ V c n hn).trans (congrArg k0_pay7 (tot0_succ V c n hn).symm)

/-- and the variance output the body's combination of that quotient and the new running sum of squares. -/
theorem var_of_tot (c : Dev nD) : ∀ (n : ℕ) (hn : n < cfg0.N),
    (outsAt0 V c n hn).2.1 = k0_pay1 (k0_pay7 (outsAt0 V c n hn).2.2.1) (outsAt0 V c n hn).2.2.2
  | 0, hn => by rw [var_zero, tot0_zero, tot1_zero]
  | n + 1, hn => by rw [var_succ, tot0_succ, tot1_succ]

/-! ## The running totals are sums over the tiles so far -/

/-- Tile `t`'s contribution to field `f`'s sum of `g` of the entries (`0` past the last tile). -/
def tileSum (g : EReal → EReal) (E : Cert.Spec.EIdx → EReal) (f : Fin 32) (t : ℕ) : EReal :=
  if h : t < 32 then ∑ r : Fin 256, (fun b : Fin 8192 => ∑ d : Fin 32, g (E (ix3 b f d))) ⟨256 * t + r.val, by omega⟩ else 0

theorem tile_eq (g : EReal → EReal) (c : Dev nD) (t : Fin cfg0.N) (f : Fin 32) :
    ∑ r : Fin 256, ∑ d : Fin 32, g ((iblk0 V c 0 t : Vec Ideal S256x32x32 .f32) (ix3 r f d)) = tileSum g (V c main_v6 : Cert.Spec.EIdx → EReal) f t.val := by
  have ht : t.val < 32 := by have := t.isLt; have h32 : cfg0.N = 32 := N0_eq; omega
  unfold tileSum; rw [dif_pos ht]
  refine Finset.sum_congr rfl fun r _ => Finset.sum_congr rfl fun d _ => ?_
  exact congrArg g (iblk0_apply V c t r f d)

/-- After point `n` the running sum for field `f` is the sum of the first `n + 1` tiles' entries. -/
theorem tot0_at (c : Dev nD) (f : Fin 32) : ∀ (n : ℕ) (hn : n < cfg0.N),
    (outsAt0 V c n hn).2.2.1 (ix3 0 f 0) = ∑ t ∈ Finset.range (n + 1), tileSum id (V c main_v6 : Cert.Spec.EIdx → EReal) f t
  | 0, hn => by
    rw [tot0_zero, pay5_apply, pay2_apply, zero_add, Finset.sum_range_one]
    exact tile_eq V id c ⟨0, hn⟩ f
  | n + 1, hn => by
    rw [tot0_succ, pay5_apply, tot0_at c f n (Nat.lt_of_succ_lt hn), Finset.sum_range_succ _ (n + 1)]
    exact congrArg _ (tile_eq V id c ⟨n + 1, hn⟩ f)

/-- The running sum of squares likewise. -/
theorem tot1_at (c : Dev nD) (f : Fin 32) : ∀ (n : ℕ) (hn : n < cfg0.N),
    (outsAt0 V c n hn).2.2.2 (ix3 0 f 0) = ∑ t ∈ Finset.range (n + 1), tileSum (fun x => x * x) (V c main_v6 : Cert.Spec.EIdx → EReal) f t
  | 0, hn => by
    rw [tot1_zero, pay6_apply, pay3_apply, zero_add, Finset.sum_range_one]
    exact tile_eq V (fun x => x * x) c ⟨0, hn⟩ f
  | n + 1, hn => by
    rw [tot1_succ, pay6_apply, tot1_at c f n (Nat.lt_of_succ_lt hn), Finset.sum_range_succ _ (n + 1)]
    exact congrArg _ (tile_eq V (fun x => x * x) c ⟨n + 1, hn⟩ f)

/-- All 32 tiles together are all 8192 rows. -/
theorem tiles_all (g : EReal → EReal) (E : Cert.Spec.EIdx → EReal) (f : Fin 32) :
    ∑ t ∈ Finset.range 32, tileSum g E f t = ∑ b : Fin 8192, ∑ d : Fin 32, g (E (ix3 b f d)) :=
  Cert.Spec.sum_tiles_range (fun b : Fin 8192 => ∑ d : Fin 32, g (E (ix3 b f d)))

/-! ## The two outputs after the last point -/

theorem h31 : 31 < cfg0.N := by rw [N0_eq]; omega

/-- The mean output after the last point is the field's mean. -/
theorem mean_last (c : Dev nD) (f : Fin 32) :
    (outsAt0 V c 31 h31).1 (ix3 0 f 0) = Cert.Spec.mean (V c main_v6 : Cert.Spec.EIdx → EReal) f := by
  rw [mean_of_tot, pay7_apply, tot0_at, tiles_all]
  rfl

/-- The variance output after the last point is the field's mean of squares less its squared mean. -/
theorem var_last (c : Dev nD) (f : Fin 32) :
    (outsAt0 V c 31 h31).2.1 (ix3 0 f 0) = Cert.Spec.varSq (V c main_v6 : Cert.Spec.EIdx → EReal) f := by
  rw [var_of_tot, pay1_apply, pay7_apply, tot0_at, tot1_at, tiles_all, tiles_all]
  rfl

end Cert.KernelIdeal.HandValue

end
-- ==== Proof.StatsArr.lean ====
/-
  What the statistics kernel leaves in its two output arrays.  Each output's window has one block, the whole
  [1, 32, 1] array, and is written back at the last of the 32 grid points only.  So after the region each array
  holds what the body left in that output's buffer at point 31.
-/
import proofs.«127497_j70282844831820_2_alg».proof.Proof.StatsFrame
import Idealize.ShloMosaic.Lib.Pipeline.Value

noncomputable section

namespace Cert.KernelIdeal.HandValue

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The last point of the 32. -/
theorem stats_lt31 : 31 < cfg0.N := by rw [show cfg0.N = 32 from N_0]; omega
abbrev stats_t31 : Fin cfg0.N := ⟨31, stats_lt31⟩

/-- The one write-back of the mean output, at point 31, writes what the body left there: the block is the array. -/
theorem stats_flushed1_eq (c : Dev nD) (t : Fin cfg0.N) (hf : (cfg0.win 1).flush t = true) :
    (Hand.dat0 V c).flushed 1 t
      = ((cfg0.win 1).blk t).view.read (Elt F) ((Hand.outsAt0 V c 31 stats_lt31).1 : Buf (Elt F) ((c : Thread nD τ).loc main_v22_0)) := by
  have hN : cfg0.N = 32 := N_0
  have h31 : t.val = 31 := by have := (flush0_1 t).mp hf; have := t.isLt; omega
  obtain rfl : t = stats_t31 := Fin.ext h31
  show (cfg0.win 1).cut (grid0.coords stats_t31) ((Hand.dat0 V c).after 1 stats_t31) = _
  rw [Hand.after0_1]
  have hz' : (fun a => win0_1.index stats_t31 a * main_v22_0.ty.shape.size a) = fun _ => 0 := funext fun a => by fin_cases a <;> decide
  exact (Memref.read_access_unit_zero (Elt F) main_v22_0 hz' (fun a => by rw [congrFun hz' a]; simp) _).symm

/-- So the mean output's array ends holding what point 31 left in its buffer. -/
theorem stats_arr1_eq (c : Dev nD) : (Hand.dat0 V c).arrAt 1 cfg0.N = (Hand.outsAt0 V c 31 stats_lt31).1 :=
  (Hand.dat0 V c).arrAt_eq_of_cover 1 _ (stats_flushed1_eq V c) fun i =>
    ⟨stats_t31, (flush0_1 stats_t31).mpr rfl, by
      show i ∈ ((View.whole main_v22_0).slice (win0_1.rect stats_t31)).set
      rw [View.set_slice_whole, Rect.mem_set_unit]
      intro a
      have h0 : (i 0 : Nat) < 1 := (i 0).isLt
      have h1 : (i 1 : Nat) < 32 := (i 1).isLt
      have h2 : (i 2 : Nat) < 1 := (i 2).isLt
      match a with
      | ⟨0, _⟩ => show win0_1.index stats_t31 0 * win0_1.size 0 ≤ (i 0 : Nat) ∧ (i 0 : Nat) < win0_1.index stats_t31 0 * win0_1.size 0 + win0_1.xsize (grid0.coords stats_t31) 0
                  rw [show win0_1.index stats_t31 0 * win0_1.size 0 = 0 from by decide +kernel, show win0_1.xsize (grid0.coords stats_t31) 0 = 1 from by decide +kernel]; omega
      | ⟨1, _⟩ => show win0_1.index stats_t31 1 * win0_1.size 1 ≤ (i 1 : Nat) ∧ (i 1 : Nat) < win0_1.index stats_t31 1 * win0_1.size 1 + win0_1.xsize (grid0.coords stats_t31) 1
                  rw [show win0_1.index stats_t31 1 * win0_1.size 1 = 0 from by decide +kernel, show win0_1.xsize (grid0.coords stats_t31) 1 = 32 from by decide +kernel]; omega
      | ⟨2, _⟩ => show win0_1.index stats_t31 2 * win0_1.size 2 ≤ (i 2 : Nat) ∧ (i 2 : Nat) < win0_1.index stats_t31 2 * win0_1.size 2 + win0_1.xsize (grid0.coords stats_t31) 2
                  rw [show win0_1.index stats_t31 2 * win0_1.size 2 = 0 from by decide +kernel, show win0_1.xsize (grid0.coords stats_t31) 2 = 1 from by decide +kernel]; omega⟩

/-- The one write-back of the variance output, at point 31, writes what the body left there: the block is the array. -/
theorem stats_flushed2_eq (c : Dev nD) (t : Fin cfg0.N) (hf : (cfg0.win 2).flush t = true) :
    (Hand.dat0 V c).flushed 2 t
      = ((cfg0.win 2).blk t).view.read (Elt F) ((Hand.outsAt0 V c 31 stats_lt31).2.1 : Buf (Elt F) ((c : Thread nD τ).loc main_v22_1)) := by
  have hN : cfg0.N = 32 := N_0
  have h31 : t.val = 31 := by have := (flush0_2 t).mp hf; have := t.isLt; omega
  obtain rfl : t = stats_t31 := Fin.ext h31
  show (cfg0.win 2).cut (grid0.coords stats_t31) ((Hand.dat0 V c).after 2 stats_t31) = _
  rw [Hand.after0_2]
  have hz' : (fun a => win0_2.index stats_t31 a * main_v22_1.ty.shape.size a) = fun _ => 0 := funext fun a => by fin_cases a <;> decide
  exact (Memref.read_access_unit_zero (Elt F) main_v22_1 hz' (fun a => by rw [congrFun hz' a]; simp) _).symm

/-- So the variance output's array ends holding what point 31 left in its buffer. -/
theorem stats_arr2_eq (c : Dev nD) : (Hand.dat0 V c).arrAt 2 cfg0.N = (Hand.outsAt0 V c 31 stats_lt31).2.1 :=
  (Hand.dat0 V c).arrAt_eq_of_cover 2 _ (stats_flushed2_eq V c) fun i =>
    ⟨stats_t31, (flush0_2 stats_t31).mpr rfl, by
      show i ∈ ((View.whole main_v22_1).slice (win0_2.rect stats_t31)).set
      rw [View.set_slice_whole, Rect.mem_set_unit]
      intro a
      have h0 : (i 0 : Nat) < 1 := (i 0).isLt
      have h1 : (i 1 : Nat) < 32 := (i 1).isLt
      have h2 : (i 2 : Nat) < 1 := (i 2).isLt
      match a with
      | ⟨0, _⟩ => show win0_2.index stats_t31 0 * win0_2.size 0 ≤ (i 0 : Nat) ∧ (i 0 : Nat) < win0_2.index stats_t31 0 * win0_2.size 0 + win0_2.xsize (grid0.coords stats_t31) 0
                  rw [show win0_2.index stats_t31 0 * win0_2.size 0 = 0 from by decide +kernel, show win0_2.xsize (grid0.coords stats_t31) 0 = 1 from by decide +kernel]; omega
      | ⟨1, _⟩ => show win0_2.index stats_t31 1 * win0_2.size 1 ≤ (i 1 : Nat) ∧ (i 1 : Nat) < win0_2.index stats_t31 1 * win0_2.size 1 + win0_2.xsize (grid0.coords stats_t31) 1
                  rw [show win0_2.index stats_t31 1 * win0_2.size 1 = 0 from by decide +kernel, show win0_2.xsize (grid0.coords stats_t31) 1 = 32 from by decide +kernel]; omega
      | ⟨2, _⟩ => show win0_2.index stats_t31 2 * win0_2.size 2 ≤ (i 2 : Nat) ∧ (i 2 : Nat) < win0_2.index stats_t31 2 * win0_2.size 2 + win0_2.xsize (grid0.coords stats_t31) 2
                  rw [show win0_2.index stats_t31 2 * win0_2.size 2 = 0 from by decide +kernel, show win0_2.xsize (grid0.coords stats_t31) 2 = 1 from by decide +kernel]; omega⟩

/-- The mean output's array after the region, element by element. -/
theorem arr1 (c : Dev nD) (j : S1x32x1.Idx) :
    (Hand.dat0 V c).arrAt 1 cfg0.N j = (Hand.outsAt0 V c 31 stats_lt31).1 j :=
  congrFun (stats_arr1_eq V c) j

/-- The variance output's array after the region, element by element. -/
theorem arr2 (c : Dev nD) (j : S1x32x1.Idx) :
    (Hand.dat0 V c).arrAt 2 cfg0.N j = (Hand.outsAt0 V c 31 stats_lt31).2.1 j :=
  congrFun (stats_arr2_eq V c) j

end Cert.KernelIdeal.HandValue

end
-- ==== Proof.NormValue.lean ====
/-
  The normalising region's output array, index by index: after the region's 32 points have written their blocks back,
  the element at sample `b`, field `f`, lane `d` is the entry there, centred by the field's mean, times the reciprocal
  root of the field's variance plus ε, times the scale at (f, d) — each read off the arrays as the region found them.
-/
import proofs.«127497_j70282844831820_2_alg».proof.Proof.NormRegion
import proofs.«127497_j70282844831820_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.ShloMosaic.Pipeline (Dat Cfg Window)

/-! ## The body's payload at an index -/

/-- The stored block at (r, f, d): the loaded entry there, less the mean at field `f`, times the reciprocal root of
    the variance at field `f` plus ε, times the scale at (f, d). The two per-field vectors have one entry per field
    and are read at (0, f, 0); the scale is read at (f, d) whatever the row. -/
theorem pay_apply (x0 : Vec Ideal S256x32x32 .f32) (x1 x2 : Vec Ideal S1x32x1 .f32) (x3 : Vec Ideal S32x32 .f32)
    (r : Fin 256) (f d : Fin 32) :
    k1_pay1 x0 x1 x2 x3 (ix3 r f d)
      = Cert.Spec.normAt (x0 (ix3 r f d)) (x1 (ix3 (0 : Fin 1) f (0 : Fin 1))) (x2 (ix3 (0 : Fin 1) f (0 : Fin 1))) (x3 (ix2 f d)) := by
  unfold k1_pay1 Cert.Spec.normAt
  simp only [shapeCast_self]
  rw [mulf_apply, mulf_apply, subf_apply]
  have e1 : ∀ v : Vec Ideal S1x32x1 .f32, broadcastTo S256x32x32 v broadcasts_S1x32x1_S256x32x32 (ix3 r f d) = v (ix3 (0 : Fin 1) f (0 : Fin 1)) :=
    fun v => broadcastTo_apply v _ (ix3 r f d) (ix3 (0 : Fin 1) f (0 : Fin 1)) fun a => match a with | ⟨0, _⟩ => rfl | ⟨1, _⟩ => rfl | ⟨2, _⟩ => rfl
  have e3 : ∀ v : Vec Ideal S1x32x32 .f32, broadcastTo S256x32x32 v broadcasts_S1x32x32_S256x32x32 (ix3 r f d) = v (ix3 (0 : Fin 1) f d) :=
    fun v => broadcastTo_apply v _ (ix3 r f d) (ix3 (0 : Fin 1) f d) fun a => match a with | ⟨0, _⟩ => rfl | ⟨1, _⟩ => rfl | ⟨2, _⟩ => rfl
  rw [e1, e1, e3, shapeCast_ab_1ab_apply]
  rfl

/-! ## The stored block at an index, over any loaded blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output buffer, at the buffer's index `j`: the payload there — the body loads and
    stores whole buffers, so the loads read the blocks and the one store leaves its payload. -/
theorem out_apply (x0 : Vec Ideal S256x32x32 .f32) (x1 x2 : Vec Ideal S1x32x1 .f32) (x3 : Vec Ideal S32x32 .f32)
    (j : S256x32x32.Idx) :
    Hand.out1_4 x0 x1 x2 x3 j
      = Cert.Spec.normAt (x0 j) (x1 (ix3 (0 : Fin 1) (j 1) (0 : Fin 1))) (x2 (ix3 (0 : Fin 1) (j 1) (0 : Fin 1))) (x3 (ix2 (j 1) (j 2))) := by
  unfold Hand.out1_4
  rw [View.canon_unit_zero hz3]
  simp only [View.ld_unit_zero (S := S256x32x32) hz3, View.ld_unit_zero (S := S1x32x1) hz3, View.ld_unit_zero (S := S32x32) hz2]
  obtain ⟨a, b, c, rfl⟩ : ∃ (a : Fin 256) (b c : Fin 32), j = ix3 a b c := ⟨_, _, _, eq_ix3 j⟩
  exact pay_apply x0 x1 x2 x3 a b c

/-! ## What a point writes back -/

variable (V : (c : Dev nD) → (b : Ref sig .tc) → Buf (Elt Ideal) ((c : Thread nD τ).loc b))

/-- The whole output array the blocks are cut from: each entry of the embeddings as the region finds them, normalised by
    its field's mean and variance and scaled by its (field, lane) scale. -/
def G (c : Dev nD) : S8192x32x32.Idx → Elt Ideal .f32 := fun i =>
  Cert.Spec.normAt (V c main_v6 i) (V c main_v22_0 (ix3 (0 : Fin 1) (i 1) (0 : Fin 1))) (V c main_v22_1 (ix3 (0 : Fin 1) (i 1) (0 : Fin 1)))
    (V c main_v21 (ix2 (i 1) (i 2)))

/-- The index maps, decided once over the grid: the embeddings' block moves with the output's along the samples, every
    other block index is 0, and the output's block along the samples is the point's number. -/
theorem idx_facts : ∀ t : Fin cfg1.N,
    win1_0.index t (0 : Fin 3) = win1_4.index t (0 : Fin 3) ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- What point `t` writes back is block `t` of `G`. -/
theorem flushed_eq (c : Dev nD) (t : Fin cfg1.N) :
    (Hand.dat1 V c).flushed 4 t = ((cfg1.win 4).blk t).view.read (Elt Ideal) (G V c) := by
  show (cfg1.win 4).cut (grid1.coords t) ((Hand.dat1 V c).after 4 t) = _
  rw [Hand.after1_4]
  funext j
  refine (out_apply _ _ _ _ _).trans ?_
  obtain ⟨e00, e01, e02, e10, e11, e12, e20, e21, e22, e30, e31, e40, e41, e42⟩ := idx_facts t
  show Cert.Spec.normAt (V c main_v6 (((cfg1.win 0).blk t).view.emb j))
      (V c main_v22_0 (((cfg1.win 1).blk t).view.emb (ix3 (0 : Fin 1) (j 1) (0 : Fin 1))))
      (V c main_v22_1 (((cfg1.win 2).blk t).view.emb (ix3 (0 : Fin 1) (j 1) (0 : Fin 1))))
      (V c main_v21 (((cfg1.win 3).blk t).view.emb (ix2 (j 1) (j 2))))
    = Cert.Spec.normAt (V c main_v6 (((cfg1.win 4).blk t).view.emb j))
      (V c main_v22_0 (ix3 (0 : Fin 1) ((((cfg1.win 4).blk t).view.emb j) 1) (0 : Fin 1)))
      (V c main_v22_1 (ix3 (0 : Fin 1) ((((cfg1.win 4).blk t).view.emb j) 1) (0 : Fin 1)))
      (V c main_v21 (ix2 ((((cfg1.win 4).blk t).view.emb j) 1) ((((cfg1.win 4).blk t).view.emb j) 2)))
  have hj0 : (j 0).val < 256 := (j 0).isLt
  have hj1 : (j 1).val < 32 := (j 1).isLt
  have hj2 : (j 2).val < 32 := (j 2).isLt
  have h0 : ((cfg1.win 0).blk t).view.emb j = ((cfg1.win 4).blk t).view.emb j := by
    funext a; apply Fin.ext
    match a with
    | ⟨0, _⟩ => show win1_0.index t (0 : Fin 3) * 256 + 1 * (j 0).val = win1_4.index t (0 : Fin 3) * 256 + 1 * (j 0).val; omega
    | ⟨1, _⟩ => show win1_0.index t (1 : Fin 3) * 32 + 1 * (j 1).val = win1_4.index t (1 : Fin 3) * 32 + 1 * (j 1).val; omega
    | ⟨2, _⟩ => show win1_0.index t (2 : Fin 3) * 32 + 1 * (j 2).val = win1_4.index t (2 : Fin 3) * 32 + 1 * (j 2).val; omega
  have h1 : ((cfg1.win 1).blk t).view.emb (ix3 (0 : Fin 1) (j 1) (0 : Fin 1))
      = ix3 (0 : Fin 1) ((((cfg1.win 4).blk t).view.emb j) 1) (0 : Fin 1) := by
    funext a; apply Fin.ext
    match a with
    | ⟨0, _⟩ => show win1_1.index t (0 : Fin 3) * 1 + 1 * 0 = 0; omega
    | ⟨1, _⟩ => show win1_1.index t (1 : Fin 3) * 32 + 1 * (j 1).val = win1_4.index t (1 : Fin 3) * 32 + 1 * (j 1).val; omega
    | ⟨2, _⟩ => show win1_1.index t (2 : Fin 3) * 1 + 1 * 0 = 0; omega
  have h2 : ((cfg1.win 2).blk t).view.emb (ix3 (0 : Fin 1) (j 1) (0 : Fin 1))
      = ix3 (0 : Fin 1) ((((cfg1.win 4).blk t).view.emb j) 1) (0 : Fin 1) := by
    funext a; apply Fin.ext
    match a with
    | ⟨0, _⟩ => show win1_2.index t (0 : Fin 3) * 1 + 1 * 0 = 0; omega
    | ⟨1, _⟩ => show win1_2.index t (1 : Fin 3) * 32 + 1 * (j 1).val = win1_4.index t (1 : Fin 3) * 32 + 1 * (j 1).val; omega
    | ⟨2, _⟩ => show win1_2.index t (2 : Fin 3) * 1 + 1 * 0 = 0; omega
  have h3 : ((cfg1.win 3).blk t).view.emb (ix2 (j 1) (j 2))
      = ix2 ((((cfg1.win 4).blk t).view.emb j) 1) ((((cfg1.win 4).blk t).view.emb j) 2) := by
    funext a; apply Fin.ext
    match a with
    | ⟨0, _⟩ => show win1_3.index t (0 : Fin 2) * 32 + 1 * (j 1).val = win1_4.index t (1 : Fin 3) * 32 + 1 * (j 1).val; omega
    | ⟨1, _⟩ => show win1_3.index t (1 : Fin 2) * 32 + 1 * (j 2).val = win1_4.index t (2 : Fin 3) * 32 + 1 * (j 2).val; omega
  rw [h0, h1, h2, h3]
  rfl

/-! ## The blocks cover the array -/

/-- An index of the output array is in point `t`'s block iff each coordinate is in the block's range on its axis. -/
theorem mem_blk (t : Fin cfg1.N) (i : S8192x32x32.Idx) :
    i ∈ ((cfg1.win 4).blk t).view.set
      ↔ ∀ a : Fin 3, win1_4.index t a * S256x32x32.size a ≤ (i a).val ∧ (i a).val < win1_4.index t a * S256x32x32.size a + S256x32x32.size a := by
  show i ∈ ((View.whole main_v23).slice (win1_4.rect t)).set ↔ _
  rw [View.set_slice_whole, Rect.mem_set_unit]
  exact Iff.rfl

/-- Sample `b` is in the block of point `b / 256`, which writes it back. -/
theorem covered (i : S8192x32x32.Idx) :
    ∃ t : Fin cfg1.N, (cfg1.win 4).flush t = true ∧ i ∈ ((cfg1.win 4).blk t).view.set := by
  have hi0 : (i 0).val < 8192 := (i 0).isLt
  have hi1 : (i 1).val < 32 := (i 1).isLt
  have hi2 : (i 2).val < 32 := (i 2).isLt
  have hN : cfg1.N = 32 := N_1
  refine ⟨⟨(i 0).val / 256, by rw [hN]; omega⟩, flush1_4 _, ?_⟩
  rw [mem_blk]
  obtain ⟨-, -, -, -, -, -, -, -, -, -, -, e40, e41, e42⟩ := idx_facts ⟨(i 0).val / 256, by rw [hN]; omega⟩
  intro a
  match a with
  | ⟨0, _⟩ =>
    show win1_4.index _ (0 : Fin 3) * 256 ≤ (i 0).val ∧ (i 0).val < win1_4.index _ (0 : Fin 3) * 256 + 256
    rw [e40]; show (i 0).val / 256 * 256 ≤ (i 0).val ∧ (i 0).val < (i 0).val / 256 * 256 + 256; omega
  | ⟨1, _⟩ =>
    show win1_4.index _ (1 : Fin 3) * 32 ≤ (i 1).val ∧ (i 1).val < win1_4.index _ (1 : Fin 3) * 32 + 32
    rw [e41]; omega
  | ⟨2, _⟩ =>
    show win1_4.index _ (2 : Fin 3) * 32 ≤ (i 2).val ∧ (i 2).val < win1_4.index _ (2 : Fin 3) * 32 + 32
    rw [e42]; omega

/-! ## The output array after the region -/

/-- The whole output array after the region's last point is `G` of the arrays as the region found them. -/
theorem arr_eq (c : Dev nD) : (Hand.dat1 (F := Ideal) V c).arrAt 4 cfg1.N = G V c :=
  (Hand.dat1 V c).arrAt_eq_of_cover 4 (G V c) (fun t _ => flushed_eq V c t) covered

/-- Index by index: the element at sample `b`, field `f`, lane `d`. -/
theorem out_array (c : Dev nD) (b : Fin 8192) (f d : Fin 32) :
    (Hand.dat1 (F := Ideal) V c).arrAt 4 cfg1.N (ValueIdx.ix3 b f d)
      = Cert.Spec.normAt (V c main_v6 (ValueIdx.ix3 b f d)) (V c main_v22_0 (ValueIdx.ix3 0 f 0)) (V c main_v22_1 (ValueIdx.ix3 0 f 0))
          (V c main_v21 (ValueIdx.ix2 f d)) := by
  rw [arr_eq]
  rfl

end Cert.KernelIdeal.HandValue

end
-- ==== Proof.KValue.lean ====
/-
  The kernel program's result, index by index, from the contents `E` (the gathered embeddings) and `C` (the scale) that
  the host operations leave: the second kernel's output at `(b, f, d)` is the centred entry times the reciprocal root of
  variance plus ε times the scale, where mean and variance are what the first kernel's last write-back left, that is
  field `f`'s mean and its mean of squares less its squared mean over all samples and lanes.
-/
import proofs.«127497_j70282844831820_2_alg».proof.Proof.KRun
import proofs.«127497_j70282844831820_2_alg».proof.Proof.StatsTotals
import proofs.«127497_j70282844831820_2_alg».proof.Proof.StatsArr
import proofs.«127497_j70282844831820_2_alg».proof.Proof.NormValue

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The gathered embeddings and the scale, as the host operations leave them. -/
abbrev Ek (c : Dev nD) : Cert.Spec.EIdx → EReal := V1 m ρ c main_v6
abbrev Ck (c : Dev nD) : Cert.Spec.CIdx → EReal := V1 m ρ c main_v21

/-- The first kernel does not change the embeddings (it only reads them) nor the scale (it does not touch it); -/
theorem V2_v6 (c : Dev nD) : V2 m ρ c main_v6 = V1 m ρ c main_v6 :=
  (W2_arr m ρ c 0).trans (((dat0 (V1 m ρ) c).arrAt_in 0 rfl _).trans (A_eq0 (V1 m ρ) c 0))
theorem V2_v21 (c : Dev nD) : V2 m ρ c main_v21 = V1 m ρ c main_v21 := W2_of_ne m ρ c main_v21 (by decide)
/-- its two outputs are what its write-backs leave. -/
theorem V2_mean (c : Dev nD) : V2 m ρ c main_v22_0 = (dat0 (V1 m ρ) c).arrAt 1 cfg0.N := W2_arr m ρ c 1
theorem V2_var (c : Dev nD) : V2 m ρ c main_v22_1 = (dat0 (V1 m ρ) c).arrAt 2 cfg0.N := W2_arr m ρ c 2
/-- The program's result is what the second kernel's write-backs leave. -/
theorem V3_out (c : Dev nD) : V3 m ρ c main_v23 = (dat1 (V2 m ρ) c).arrAt 4 cfg1.N := W3_arr m ρ c 4

/-- THE KERNEL PROGRAM'S RESULT at `(b, f, d)`. -/
theorem result_apply (c : Dev nD) (b : Fin 8192) (f d : Fin 32) :
    (V3 m ρ c main_v23 : Cert.Spec.EIdx → EReal) (ix3 b f d)
      = Cert.Spec.normAt (Ek m ρ c (ix3 b f d)) (Cert.Spec.mean (Ek m ρ c) f) (Cert.Spec.varSq (Ek m ρ c) f) (Ck m ρ c (ix2 f d)) := by
  rw [V3_out, out_array (V2 m ρ) c b f d, V2_v6, V2_v21, V2_mean, V2_var, arr1, arr2, mean_last, var_last]

end Cert.KernelIdeal.HandValue

end
-- ==== Proof.KHost.lean ====
/-
  The two arrays the kernels read that the host operations compute: the gathered embeddings `E` (the index array with
  its negative entries wrapped, each index then picking a row of the table) and the scale `C` (a softmax of the first
  weight array along its six columns, times the 6 × 32 mask). Each is the operations' composed term of the argument
  arrays; the reference program computes both by the very same operations.
-/
import proofs.«127497_j70282844831820_2_alg».proof.Proof.KRun
import proofs.«127497_j70282844831820_2_alg».proof.Proof.RefRun
import proofs.«127497_j70282844831820_2_alg».proof.Proof.Spec
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

open Idealize.ShloMosaic.StableHlo

/-- The gathered embeddings as a function of the index array and the table. -/
def embK (a0 : IVec S8192x32 32) (a1 : FVec Ideal S200000x32 .f32) : FVec Ideal S8192x32x32 .f32 :=
  Host.gather gather_S200000x32_S8192x32x1_S8192x32x32_2_0_n_n_0_2_132 a1 (broadcastInDim S8192x32x1 ![0, 1]
    bcast_S8192x32_S8192x32x1_0_1 (select (cmpi .slt a0 (broadcastInDim S8192x32 ![] bcast_S_S8192x32 (constantI S_ 32
    0#32))) (addi a0 (broadcastInDim S8192x32 ![] bcast_S_S8192x32 (constantI S_ 32 200000#32))) a0))

/-- The scale as a function of the weight array and the mask. -/
def coefK (a2 : FVec Ideal S32x6x1 .f32) (a3 : FVec Ideal S6x32 .f32) : FVec Ideal S32x32 .f32 :=
  Host.dotGeneral (F := Ideal) dot_S32x6_S6x32_S32x32_1_0_0_1_n_n none (Host.divf (F := Ideal) (Host.exp (F := Ideal)
    (subf (F := Ideal) (Host.divf (F := Ideal) (shapeCast S32x6 a2 shapeCasts_S32x6x1_S32x6) (broadcastInDim S32x6 ![]
    bcast_S_S32x6 (constant (F := Ideal) S_ .f32 0x3F800000#32))) (broadcastInDim S32x6 ![0, 1] bcast_S32x1_S32x6_0_1
    (broadcastInDim S32x1 ![0] bcast_S32_S32x1_0 (maximumf (F := Ideal) (broadcastInDim S32 ![] bcast_S_S32 (constant (F
    := Ideal) S_ .f32 0xFF800000#32)) (Host.reduce (FloatOps.maximumf (F := Ideal)) (Host.divf (F := Ideal) (shapeCast
    S32x6 a2 shapeCasts_S32x6x1_S32x6) (broadcastInDim S32x6 ![] bcast_S_S32x6 (constant (F := Ideal) S_ .f32
    0x3F800000#32))) (constant (F := Ideal) S_ .f32 0xFF800000#32) reducesTo_S32x6_S32_d1 h_S_)))))) (broadcastInDim S32x6
    ![0, 1] bcast_S32x1_S32x6_0_1 (broadcastInDim S32x1 ![0] bcast_S32_S32x1_0 (Host.reduceAdd (F := Ideal) (Host.exp (F
    := Ideal) (subf (F := Ideal) (Host.divf (F := Ideal) (shapeCast S32x6 a2 shapeCasts_S32x6x1_S32x6) (broadcastInDim
    S32x6 ![] bcast_S_S32x6 (constant (F := Ideal) S_ .f32 0x3F800000#32))) (broadcastInDim S32x6 ![0, 1]
    bcast_S32x1_S32x6_0_1 (broadcastInDim S32x1 ![0] bcast_S32_S32x1_0 (maximumf (F := Ideal) (broadcastInDim S32 ![]
    bcast_S_S32 (constant (F := Ideal) S_ .f32 0xFF800000#32)) (Host.reduce (FloatOps.maximumf (F := Ideal)) (Host.divf (F
    := Ideal) (shapeCast S32x6 a2 shapeCasts_S32x6x1_S32x6) (broadcastInDim S32x6 ![] bcast_S_S32x6 (constant (F := Ideal)
    S_ .f32 0x3F800000#32))) (constant (F := Ideal) S_ .f32 0xFF800000#32) reducesTo_S32x6_S32_d1 h_S_)))))) (constant (F
    := Ideal) S_ .f32 0x00000000#32) reducesTo_S32x6_S32_d1 h_S_)))) a3

variable (m : (ℓ : Loc nD τ sig) → Buf (Elt Ideal) ℓ) (ρ : Dev nD → PrngReg)

/-- What the host operations leave in the embeddings' buffer. -/
theorem v6_eq (c : Dev nD) :
    V1 m ρ c main_v6 = embK (m ((c.tc : Thread nD τ).loc main_arg0)) (m ((c.tc : Thread nD τ).loc main_arg1)) := by
  show StableHlo.after hostOps0 (W0 m ρ c) (Proc.devRef .tc main_v6) = _
  after_results
  rfl

set_option maxHeartbeats 2000000 in
/-- What they leave in the scale's buffer. -/
theorem v21_eq (c : Dev nD) :
    V1 m ρ c main_v21 = coefK (m ((c.tc : Thread nD τ).loc main_arg2)) (m ((c.tc : Thread nD τ).loc main_arg3)) := by
  show StableHlo.after hostOps0 (W0 m ρ c) (Proc.devRef .tc main_v21) = _
  after_results_simp
  rfl

/-- The reference program gathers by the same operations, -/
theorem embK_eq (a0 : IVec S8192x32 32) (a1 : FVec Ideal S200000x32 .f32) :
    embK a0 a1 = Cert.ReferenceIdeal.Hand.embR a0 a1 := rfl

/-- and builds the scale by the same operations. -/
theorem coefK_eq (a2 : FVec Ideal S32x6x1 .f32) (a3 : FVec Ideal S6x32 .f32) :
    coefK a2 a3 = Cert.ReferenceIdeal.Hand.coefR a2 a3 := rfl

/-- Every gathered entry is an entry of the table. -/
theorem embK_entry (a0 : IVec S8192x32 32) (a1 : FVec Ideal S200000x32 .f32) (i : S8192x32x32.Idx) :
    ∃ j : S200000x32.Idx, embK a0 a1 i = a1 j := ⟨_, rfl⟩

end Cert.KernelIdeal.HandValue

end
-- ==== Proof.RefRead.lean ====
/-
  The reference's result read at an index. At (sample b, field f, lane d) the run's composed term is
    ((E[b, f, d] − mean f) · rsqrt (var f + ε)) · coef[f, d],
  where E is the gathered array, mean f the sum of E over all samples and lanes of field f divided by their
  count N = 8192 · 32, and var f the like mean of the squared deviations. Three things are used: each layout
  operation of the term reads one entry of its operand; the host's float sum over axes 0 and 2 at field f is
  the double sum over (b, d), the indices that reduce to f being exactly the triples (b, f, d); and the variance
  function's divisor is N − 0 = N > 0, so its guarded selection keeps the quotient.
-/
import proofs.«127497_j70282844831820_2_alg».proof.Proof.RefRun
import proofs.«127497_j70282844831820_2_alg».proof.Proof.Spec
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.ValueIdx
open scoped BigOperators

/-! ## Layout operations read at an index -/

section Layout

variable {α : Type}

/-- A per-field vector placed along the middle axis of a [1, 32, 1] array reads its own entry. -/
theorem bc_field_apply (h : S32.BroadcastsInDim S1x32x1 ![1]) (x : S32.Idx → α) (f : Fin 32) :
    broadcastInDim S1x32x1 ![1] h x (ix3 (0 : Fin 1) f (0 : Fin 1)) = x (ix1 f) :=
  broadcastInDim_apply _ h x _ (ix1 f) fun a => match a with | ⟨0, _⟩ => rfl

/-- A [1, 32, 1] array of per-field statistics broadcast over samples and lanes reads the field's entry. -/
theorem bc_stat_apply (h : S1x32x1.BroadcastsInDim S8192x32x32 ![0, 1, 2]) (x : S1x32x1.Idx → α) (b : Fin 8192)
    (f d : Fin 32) :
    broadcastInDim S8192x32x32 ![0, 1, 2] h x (ix3 b f d) = x (ix3 (0 : Fin 1) f (0 : Fin 1)) :=
  broadcastInDim_apply _ h x _ (ix3 (0 : Fin 1) f (0 : Fin 1)) fun a =>
    match a with | ⟨0, _⟩ => rfl | ⟨1, _⟩ => rfl | ⟨2, _⟩ => rfl

/-- A (field, lane) matrix given a leading unit axis reads the matrix entry. -/
theorem bc_coef_unit_apply (h : S32x32.BroadcastsInDim S1x32x32 ![1, 2]) (x : S32x32.Idx → α) (f d : Fin 32) :
    broadcastInDim S1x32x32 ![1, 2] h x (ix3 (0 : Fin 1) f d) = x (ix2 f d) :=
  broadcastInDim_apply _ h x _ (ix2 f d) fun a => match a with | ⟨0, _⟩ => rfl | ⟨1, _⟩ => rfl

/-- A [1, 32, 32] array broadcast over the samples reads its (field, lane) entry. -/
theorem bc_coef_apply (h : S1x32x32.BroadcastsInDim S8192x32x32 ![0, 1, 2]) (x : S1x32x32.Idx → α) (b : Fin 8192)
    (f d : Fin 32) :
    broadcastInDim S8192x32x32 ![0, 1, 2] h x (ix3 b f d) = x (ix3 (0 : Fin 1) f d) :=
  broadcastInDim_apply _ h x _ (ix3 (0 : Fin 1) f d) fun a =>
    match a with | ⟨0, _⟩ => rfl | ⟨1, _⟩ => rfl | ⟨2, _⟩ => rfl

end Layout

/-! ## The sum over samples and lanes -/

section Fiber

/-- An index of the [8192, 32, 32] array reduces over axes 0 and 2 to field `f` exactly when its middle
    coordinate is `f`. -/
theorem drop_eq_iff (h : S8192x32x32.ReducesTo [0, 2] S32) (i : S8192x32x32.Idx) (f : Fin 32) :
    h.drop i = ix1 f ↔ (i 1).val = f.val := by
  have key : ((h.drop i) 0 : Nat) = (i 1).val := h.drop_apply_val_of_eq i 0 1
  constructor
  · intro e
    rw [e] at key
    exact key.symm
  · intro e
    funext a
    match a with
    | ⟨0, _⟩ => exact Fin.ext (key.trans e)

/-- The sum over the indices that reduce to field `f` is the double sum over samples and lanes: such an index
    is (b, f, d) for exactly one pair (b, d). -/
theorem sum_fiber (h : S8192x32x32.ReducesTo [0, 2] S32) (x : S8192x32x32.Idx → EReal) (f : Fin 32) :
    ∑ i ∈ Finset.univ.filter (fun i => h.drop i = ix1 f), x i
      = ∑ b : Fin 8192, ∑ d : Fin 32, x (ix3 b f d) := by
  rw [← Fintype.sum_prod_type' fun (b : Fin 8192) (d : Fin 32) => x (ix3 b f d)]
  refine Finset.sum_bij' (fun i _ => ((i 0 : Fin 8192), (i 2 : Fin 32))) (fun p _ => ix3 p.1 f p.2)
    (fun i _ => @Finset.mem_univ (Fin 8192 × Fin 32) _ ((i 0 : Fin 8192), (i 2 : Fin 32)))
    (fun p _ => Finset.mem_filter.mpr ⟨@Finset.mem_univ S8192x32x32.Idx _ (ix3 p.1 f p.2), (drop_eq_iff h _ f).mpr rfl⟩)
    (fun i hi => ?_) (fun p _ => rfl) (fun i hi => ?_)
  · have hf : (i 1).val = f.val := (drop_eq_iff h i f).mp (Finset.mem_filter.mp hi).2
    have e1 : (i 1 : Fin 32) = f := Fin.ext hf
    exact (congrArg (fun g : Fin 32 => ix3 (i 0 : Fin 8192) g (i 2 : Fin 32)) e1.symm).trans (eq_ix3 i).symm
  · have hf : (i 1).val = f.val := (drop_eq_iff h i f).mp (Finset.mem_filter.mp hi).2
    have e1 : (i 1 : Fin 32) = f := Fin.ext hf
    exact congrArg x ((eq_ix3 i).trans (congrArg (fun g : Fin 32 => ix3 (i 0 : Fin 8192) g (i 2 : Fin 32)) e1))

/-- The host's float sum over samples and lanes from the zero word, read at field `f`. -/
theorem hostSum_apply (h : S8192x32x32.ReducesTo [0, 2] S32) (hu : 0 < S_.numel) (x : FVec Ideal S8192x32x32 .f32)
    (f : Fin 32) :
    Host.reduceAdd (F := Ideal) x (constant (F := Ideal) S_ .f32 0x00000000#32) h hu (ix1 f)
      = ∑ b : Fin 8192, ∑ d : Fin 32, x (ix3 b f d) := by
  rw [hostReduceAdd_apply, constant_apply, Ideal.ofBits_zero_f32]
  unfold Ideal.hostReduceAdd
  rw [zero_add]
  exact sum_fiber h x f

end Fiber

/-! ## The statistics -/

section Stats

/-- The count's word less the correction converted from the integer zero is the count's word. -/
theorem count_sub_zero :
    subf (F := Ideal) (constant (F := Ideal) S_ .f32 0x48800000#32) (sitofp (F := Ideal) .f32 (constantI S_ 32 0#32)) ix0
      = Cert.Spec.Nw := by
  show Cert.Spec.Nw - (((0#32 : BitVec 32).toInt : ℝ) : EReal) = Cert.Spec.Nw
  rw [show (0#32 : BitVec 32).toInt = 0 from rfl, Int.cast_zero, EReal.coe_zero, sub_zero]

/-- The count is positive, so the guard of the variance's selection is the set bit. -/
theorem count_guard : Ideal.cmp .ogt Cert.Spec.Nw (Ideal.ofBits .f32 0x00000000#32) = 1#1 := by
  have hpos : (0 : EReal) < Cert.Spec.Nw := by
    rw [Cert.Spec.Nw_eq]; exact EReal.coe_pos.mpr (by norm_num)
  rw [Ideal.ofBits_zero_f32]
  unfold Ideal.cmp
  rw [decide_eq_true hpos]
  rfl

/-- The mean array at field `f` is the field's mean. -/
theorem meanR_apply (E : FVec Ideal S8192x32x32 .f32) (f : Fin 32) :
    meanR E (ix3 (0 : Fin 1) f (0 : Fin 1)) = Cert.Spec.mean E f := by
  unfold meanR Cert.Spec.mean
  rw [hostDivf_apply, bc_field_apply, broadcastInDim_scalar_apply, hostSum_apply, constant_apply]

/-- The variance function's result at field `f` is the mean of the squared deviations: the divisor is the count
    itself and positive, so the selection keeps the quotient. -/
theorem varR_apply (E : FVec Ideal S8192x32x32 .f32) (f : Fin 32) :
    varR E (ix3 (0 : Fin 1) f (0 : Fin 1)) = Cert.Spec.varDev E f := by
  unfold varR Cert.Spec.varDev
  rw [select_apply, broadcastInDim_scalar_apply, cmpf_apply, count_sub_zero, constant_apply, Ideal.cmpf_def, count_guard,
    select_one, hostDivf_apply, bc_field_apply, broadcastInDim_scalar_apply, count_sub_zero, hostSum_apply]
  refine congrArg (fun s => Ideal.div s Cert.Spec.Nw) (Finset.sum_congr rfl fun b _ => Finset.sum_congr rfl fun d _ => ?_)
  rw [mulf_apply, subf_apply, bc_stat_apply, meanR_apply]

end Stats

/-! ## The result at an index -/

/-- The reference's result at (sample b, field f, lane d): the gathered entry centred by its field's mean, times
    the reciprocal root of the field's variance plus ε, times the coefficient at (f, d). -/
theorem refOut_apply (a0 : IVec S8192x32 32) (a1 : FVec Ideal S200000x32 .f32) (a2 : FVec Ideal S32x6x1 .f32)
    (a3 : FVec Ideal S6x32 .f32) (b : Fin 8192) (f d : Fin 32) :
    refOut a0 a1 a2 a3 (ix3 b f d)
      = Cert.Spec.normAt (embR a0 a1 (ix3 b f d)) (Cert.Spec.mean (embR a0 a1) f) (Cert.Spec.varDev (embR a0 a1) f)
          (coefR a2 a3 (ix2 f d)) := by
  unfold refOut Cert.Spec.normAt
  rw [mulf_apply, mulf_apply, subf_apply, bc_stat_apply, bc_stat_apply, bc_coef_apply, bc_coef_unit_apply, meanR_apply]
  show _ * Ideal.rsqrt (addf (F := Ideal) (varR (embR a0 a1)) _ (ix3 (0 : Fin 1) f (0 : Fin 1))) * _ = _
  rw [addf_apply, varR_apply, broadcastInDim_scalar_apply, constant_apply]

end Cert.ReferenceIdeal.Hand

end
-- ==== Proof.PreReal.lean ====
/-
  The precondition says of each argument array that every entry's absolute value lies strictly below +∞.  An
  extended real x with max x (−x) < ⊤ is neither ⊤ (then max x (−x) = ⊤) nor ⊥ (then −x = ⊤): it is a real
  number.  So under the precondition every entry of the embedding table is real.
-/
import proofs.«127497_j70282844831820_2_alg».proof.Defs
import proofs.«127497_j70282844831820_2_alg».proof.Proof.Gen.Pre_finite_inputs
import Idealize.ShloMosaic.Lib.ReduceAll

noncomputable section

namespace Cert.KernelIdeal.HandPre

open Idealize.ShloMosaic Idealize.SL.Sem

/-- The rank-0 shape has one index. -/
instance : Subsingleton Cert.Pre_finite_inputs.S_.Idx := ⟨fun a b => funext fun d => d.elim0⟩

/-- An extended real whose absolute value compares strictly below the word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition, every entry of the second argument (the embedding table) is real. -/
theorem table_real [Cert.Pre_finite_inputs.Facts]
    (a0 : IVec Cert.Pre_finite_inputs.S8192x32 32) (a1 : FVec Ideal Cert.Pre_finite_inputs.S200000x32 .f32)
    (a2 : FVec Ideal Cert.Pre_finite_inputs.S32x6x1 .f32) (a3 : FVec Ideal Cert.Pre_finite_inputs.S6x32 .f32)
    (h : Cert.Pre_finite_inputs.fn (F := Ideal) a0 a1 a2 a3 = (fun _ => 1#1))
    (i : Cert.Pre_finite_inputs.S200000x32.Idx) : ∃ x : ℝ, a1 i = (x : EReal) := by
  have e := congrFun h (fun a => a.elim0 : Cert.Pre_finite_inputs.S_.Idx)
  dsimp only [Cert.Pre_finite_inputs.fn] at e
  simp only [andi] at e
  rw [IntOp.andi_eq_one, IntOp.andi_eq_one] at e
  obtain ⟨⟨e1, -⟩, -⟩ := e
  exact real_of_abs_lt (a1 i) (Host.reduce_andi_all _ _ _ _ _ e1 i)

/-- The same in the claim's words: under `Pre_KernelIdeal m`, on every device, every entry of the table the
    memory holds is real. -/
theorem table_real_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Pre_finite_inputs.S200000x32.Idx) :
    ∃ x : ℝ, m ((c.tc : Thread Cert.KernelIdeal.nD Cert.KernelIdeal.τ).loc Cert.KernelIdeal.main_arg1) i = (x : EReal) :=
  table_real _ _ _ _ (hpre c) i

end Cert.KernelIdeal.HandPre

end
-- ==== Proof.Bridge.lean ====
/-
  The two programs' results are one function of the arguments. Index by index both are the centred entry times the
  reciprocal root of variance plus ε times the scale, over the same gathered embeddings and the same scale; the means
  agree as written; the kernel's variance is the mean of squares less the squared mean, the reference's the mean of
  squared deviations, and these agree because every gathered entry is an entry of the embedding table, which the
  precondition makes a real number.
-/
import proofs.«127497_j70282844831820_2_alg».proof.Proof.KValue
import proofs.«127497_j70282844831820_2_alg».proof.Proof.KHost
import proofs.«127497_j70282844831820_2_alg».proof.Proof.RefRead
import proofs.«127497_j70282844831820_2_alg».proof.Proof.SpecLaws
import proofs.«127497_j70282844831820_2_alg».proof.Proof.PreReal

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- Under the precondition every gathered entry is a real number. -/
theorem emb_real (hpre : Cert.Pre_KernelIdeal m) (c : Dev nD) (i : Cert.Spec.EIdx) :
    ∃ x : ℝ, Cert.ReferenceIdeal.Hand.embR (m ((c.tc : Thread nD τ).loc main_arg0)) (m ((c.tc : Thread nD τ).loc main_arg1)) i = (x : EReal) := by
  rw [← embK_eq]
  obtain ⟨j, hj⟩ := embK_entry (m ((c.tc : Thread nD τ).loc main_arg0)) (m ((c.tc : Thread nD τ).loc main_arg1)) i
  rw [hj]
  exact Cert.KernelIdeal.HandPre.table_real_of_pre m hpre c j

/-- THE BRIDGE: the kernel program's result array is the reference's result term of the same arguments. -/
theorem result_eq (hpre : Cert.Pre_KernelIdeal m) (c : Dev nD) :
    (V3 m ρ c main_v23 : Cert.Spec.EIdx → EReal)
      = Cert.ReferenceIdeal.Hand.refOut (m ((c.tc : Thread nD τ).loc main_arg0)) (m ((c.tc : Thread nD τ).loc main_arg1)) (m ((c.tc : Thread nD τ).loc main_arg2)) (m ((c.tc : Thread nD τ).loc main_arg3)) := by
  funext i
  obtain ⟨b, f, d, rfl⟩ : ∃ (b : Fin 8192) (f d : Fin 32), i = ix3 b f d := ⟨_, _, _, eq_ix3 i⟩
  have hE : Ek m ρ c = Cert.ReferenceIdeal.Hand.embR (m ((c.tc : Thread nD τ).loc main_arg0)) (m ((c.tc : Thread nD τ).loc main_arg1)) :=
    (v6_eq m ρ c).trans (embK_eq _ _)
  have hC : Ck m ρ c = Cert.ReferenceIdeal.Hand.coefR (m ((c.tc : Thread nD τ).loc main_arg2)) (m ((c.tc : Thread nD τ).loc main_arg3)) :=
    (v21_eq m ρ c).trans (coefK_eq _ _)
  rw [Cert.ReferenceIdeal.Hand.refOut_apply, result_apply m ρ c b f d, hE, hC,
    Cert.Spec.var_eq _ (emb_real m hpre c) f]

end Cert.KernelIdeal.HandValue

end
-- ==== Proof.lean ====
/-
  A recommender-style embedding layer: rows of an embedding table are gathered by an index array into
  `E[b, f, d]` (8192 samples, 32 fields, 32 lanes); each field is normalised by its own mean and biased variance taken
  over all samples and lanes, and scaled per (field, lane) by `C[f, d]`, a softmax of a small weight array times a mask:
    out[b, f, d] = ((E[b, f, d] − mean f) · rsqrt (var f + ε)) · C[f, d].
  The kernel program computes the statistics in a first kernel that walks 32 batch tiles keeping a running sum and a
  running sum of squares per field, and normalises in a second kernel; the reference computes the mean and the mean of
  squared deviations directly. The claims: each program runs to its end, faults nowhere and leaves its arguments
  unchanged; the word-level kernel's idealisation rewrote nothing; and on the extended reals, from memories that agree
  on the arguments and under the precondition that the float inputs are finite, the two programs end with equal
  results. The runs are in Proof/KRun.lean (the kernel program at any float instance; its word-level copy Proof/BRun.lean)
  and Proof/RefRun.lean (the reference); the results read index by index in Proof/KValue.lean and Proof/RefRead.lean;
  that they are one function in Proof/Bridge.lean, over the laws of Proof/SpecLaws.lean.
-/
import proofs.«127497_j70282844831820_2_alg».proof.Defs
import proofs.«127497_j70282844831820_2_alg».proof.Proof.Gen.Kernel
import proofs.«127497_j70282844831820_2_alg».proof.Proof.Gen.KernelIdeal
import proofs.«127497_j70282844831820_2_alg».proof.Proof.Gen.ReferenceIdeal
import proofs.«127497_j70282844831820_2_alg».proof.Proof.Gen.Pre_finite_inputs
import proofs.«127497_j70282844831820_2_alg».proof.Proof.BRun
import proofs.«127497_j70282844831820_2_alg».proof.Proof.KRun
import proofs.«127497_j70282844831820_2_alg».proof.Proof.RefRun
import proofs.«127497_j70282844831820_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_p : Cert.frame_Kernel := fun m ρ _ => Cert.Kernel.Hand.frame (F := Bits) m ρ

/-- So does its idealisation, -/
theorem frame_pi : Cert.frame_KernelIdeal := fun m ρ _ => Cert.KernelIdeal.Hand.frame (F := Ideal) m ρ

/-- and the reference: its run with the result dropped. -/
theorem frame_ri : Cert.frame_ReferenceIdeal := fun m ρ _ =>
  (θ_run Cert.ReferenceIdeal.defs _ _).mono (fun _ h c => (h c).2) (Cert.ReferenceIdeal.Hand.run m ρ)

/-- The idealisation rewrote no operation. -/
theorem preserves : Cert.preserves_Kernel_KernelIdeal := trivial

/-- On the extended reals the two programs end with equal results: the kernel program's run ends with its result
    array at the contents the second kernel's write-backs leave, the reference's with its result at its composed term of
    the same arguments, and the two are one function. -/
theorem algebraic : Cert.algebraic_KernelIdeal_ReferenceIdeal := by
  intro m ρ m' ρ' hpre hagree
  refine ⟨fun c => Cert.KernelIdeal.Hand.V3 m ρ c Cert.KernelIdeal.main_v23, ?_, ?_⟩
  · exact (θ_run (Cert.KernelIdeal.defs (F := Ideal)) _ _).mono (fun _ h c =>
      ⟨h c _ (Cert.KernelIdeal.Hand.mem_uc Cert.KernelIdeal.main_v23 (by decide)),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c)⟩)
      (Cert.KernelIdeal.Hand.run_all m ρ)
  · refine (θ_run Cert.ReferenceIdeal.defs _ _).mono (fun _ h c => ⟨(h c).1.trans ?_, (h c).2⟩)
      (Cert.ReferenceIdeal.Hand.run m' ρ')
    rw [(hagree c).1, (hagree c).2.1, (hagree c).2.2.1, (hagree c).2.2.2]
    exact (Cert.KernelIdeal.HandValue.result_eq m ρ hpre c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
